-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S64x64 : Shape := ⟨2, ![64, 64]⟩
abbrev S64 : Shape := ⟨1, ![64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x64 .f32) (main_arg7 : FVec F S64 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S8x2048x64 .f32) (main_arg1 : FVec F S8x2048x64 .f32) (main_arg2 : FVec F S8x2048x2048 .f32) (main_arg3 : FVec F S8x2048x2048 .f32) (main_arg4 : FVec F S64x64 .f32) (main_arg5 : FVec F S64 .f32) (main_arg6 : FVec F S64x64 .f32) (main_arg7 : FVec F S64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg4 main_arg5 main_arg6 main_arg7 main_v13 main_v16
-- ==== Kernel.lean ====
abbrev S8x2048x64 : Shape := ⟨3, ![8, 2048, 64]⟩
abbrev S8x2048x2048 : Shape := ⟨3, ![8, 2048, 2048]⟩
abbrev S64x64 : Shape := ⟨2, ![64, 64]⟩
abbrev S64 : Shape := ⟨1, ![64]⟩
abbrev S8x64x2048 : Shape := ⟨3, ![8, 64, 2048]⟩
abbrev S1x64 : Shape := ⟨2, ![1, 64]⟩
abbrev S8x2048x128 : Shape := ⟨3, ![8, 2048, 128]⟩
abbrev S1x64x1024 : Shape := ⟨3, ![1, 64, 1024]⟩
abbrev S1x1024x2048 : Shape := ⟨3, ![1, 1024, 2048]⟩
abbrev S1x1024x128 : Shape := ⟨3, ![1, 1024, 128]⟩
abbrev S1x64x2048 : Shape := ⟨3, ![1, 64, 2048]⟩
abbrev S64x2048 : Shape := ⟨2, ![64, 2048]⟩
abbrev S2048x64 : Shape := ⟨2, ![2048, 64]⟩
abbrev S1x2048x64 : Shape := ⟨3, ![1, 2048, 64]⟩
abbrev S64x1024 : Shape := ⟨2, ![64, 1024]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 13
  | .vmem => 15
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S8x2048x2048, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8x64x2048, .f32⟩
  | .hbm, ⟨9, _⟩ => ⟨S8x64x2048, .f32⟩
  | .hbm, ⟨10, _⟩ => ⟨S1x64, .f32⟩
  | .hbm, ⟨11, _⟩ => ⟨S1x64, .f32⟩
  | .hbm, ⟨12, _⟩ => ⟨S8x2048x128, .f32⟩
  | .local _ .vmem, ⟨0, _⟩ => ⟨S8x64x2048, .f32⟩
  | .local _ .vmem, ⟨1, _⟩ => ⟨S1x64x1024, .f32⟩
  | .local _ .vmem, ⟨2, _⟩ => ⟨S1x64x1024, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1024x2048, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S1x1024x128, .f32⟩
  | .local _ .vmem, ⟨12, _⟩ => ⟨S1x1024x128, .f32⟩
  | .local _ .vmem, ⟨13, _⟩ => ⟨S8x2048x64, .f32⟩
  | .local _ .vmem, ⟨14, _⟩ => ⟨S8x2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 2], ![false, false]⟩

def k0_off1 (i : grid0.Coords) : Fin 3 → Nat :=
  let arg0 : BitVec 32 := BitVec.ofNat 32 (i 0).val
  let v10 : Index := Scalar.indexCast arg0
  let c0_7 : Index := 0#32
  let c0_8 : Index := 0#32
  ![v10.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S8x2048x64_S8x64x2048_0_2_1 : S8x2048x64.Transposes [0, 2, 1] S8x64x2048
  shapeCasts_S64_S1x64 : S64.ShapeCasts S1x64
  inb_S8x64x2048_S1x64x2048_0_0_0 : ∀ a, (![0, 0, 0] : Fin 3 → Nat) a + S1x64x2048.size a ≤ S8x64x2048.size a
  h_S1x64x2048 : 0 < S1x64x2048.numel
  shapeCasts_S1x64x2048_S64x2048 : S1x64x2048.ShapeCasts S64x2048
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S8x2048x64_S1x2048x64_0_0_0 : ∀ a, (![0, 0, 0] : Fin 3 → Nat) a + S1x2048x64.size a ≤ S8x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  inb_S8x64x2048_S1x64x2048_1_0_0 : ∀ a, (![1, 0, 0] : Fin 3 → Nat) a + S1x64x2048.size a ≤ S8x64x2048.size a
  inb_S8x2048x64_S1x2048x64_1_0_0 : ∀ a, (![1, 0, 0] : Fin 3 → Nat) a + S1x2048x64.size a ≤ S8x2048x64.size a
  inb_S8x64x2048_S1x64x2048_2_0_0 : ∀ a, (![2, 0, 0] : Fin 3 → Nat) a + S1x64x2048.size a ≤ S8x64x2048.size a
  inb_S8x2048x64_S1x2048x64_2_0_0 : ∀ a, (![2, 0, 0] : Fin 3 → Nat) a + S1x2048x64.size a ≤ S8x2048x64.size a
  inb_S8x64x2048_S1x64x2048_3_0_0 : ∀ a, (![3, 0, 0] : Fin 3 → Nat) a + S1x64x2048.size a ≤ S8x64x2048.size a
  inb_S8x2048x64_S1x2048x64_3_0_0 : ∀ a, (![3, 0, 0] : Fin 3 → Nat) a + S1x2048x64.size a ≤ S8x2048x64.size a
  inb_S8x64x2048_S1x64x2048_4_0_0 : ∀ a, (![4, 0, 0] : Fin 3 → Nat) a + S1x64x2048.size a ≤ S8x64x2048.size a
  inb_S8x2048x64_S1x2048x64_4_0_0 : ∀ a, (![4, 0, 0] : Fin 3 → Nat) a + S1x2048x64.size a ≤ S8x2048x64.size a
  inb_S8x64x2048_S1x64x2048_5_0_0 : ∀ a, (![5, 0, 0] : Fin 3 → Nat) a + S1x64x2048.size a ≤ S8x64x2048.size a
  inb_S8x2048x64_S1x2048x64_5_0_0 : ∀ a, (![5, 0, 0] : Fin 3 → Nat) a + S1x2048x64.size a ≤ S8x2048x64.size a
  inb_S8x64x2048_S1x64x2048_6_0_0 : ∀ a, (![6, 0, 0] : Fin 3 → Nat) a + S1x64x2048.size a ≤ S8x64x2048.size a
  inb_S8x2048x64_S1x2048x64_6_0_0 : ∀ a, (![6, 0, 0] : Fin 3 → Nat) a + S1x2048x64.size a ≤ S8x2048x64.size a
  inb_S8x64x2048_S1x64x2048_7_0_0 : ∀ a, (![7, 0, 0] : Fin 3 → Nat) a + S1x64x2048.size a ≤ S8x64x2048.size a
  inb_S8x2048x64_S1x2048x64_7_0_0 : ∀ a, (![7, 0, 0] : Fin 3 → Nat) a + S1x2048x64.size a ≤ S8x2048x64.size a
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  transposes_S64x1024_p1_0_S1024x64 : S64x1024.Transposes [1, 0] S1024x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x64_S1024 : S1024x64.Reduces [1] S1024
  shapeCasts_S1024_S1024x1 : S1024.ShapeCasts S1024x1
  broadcasts_S1024x1_S1024x64 : S1024x1.Broadcasts S1024x64
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x1024x128_S1x1024x64_0_0_64 : ∀ a, (![0, 0, 64] : Fin 3 → Nat) a + S1x1024x64.size a ≤ S1x1024x128.size a
  dot_S64x2048_S64x64_S2048x64_0_0_1_1_n_n_wf : DotDims.WF S64x2048 S64x64 S2048x64 [0] [0] [1] [1] [] []
  dot_S1024x2048_S2048x64_S1024x64_1_0_0_1_n_n_wf : DotDims.WF S1024x2048 S2048x64 S1024x64 [1] [0] [0] [1] [] []
  hrank0 : 0 < grid0.rank
  k0_off1_inb : ∀ i : grid0.Coords, ∀ a, (k0_off1 i) a + S1x2048x64.size a ≤ S8x2048x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x64x2048.size a ≤ S8x64x2048.size a
  hwx0_0 : ∀ i : grid0.Coords, EltTy.bits .f32 = 32 ∨ (Rect.block (s := S8x64x2048) S8x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x64x2048.size a
  hwx0_1 : ∀ i : grid0.Coords, EltTy.bits .f32 = 32 ∨ (Rect.block (s := S8x64x2048) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x2048.size a
  hwx0_2 : ∀ i : grid0.Coords, EltTy.bits .f32 = 32 ∨ (Rect.block (s := S8x2048x2048) S1x1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x2048x2048.size a
  hwx0_3 : ∀ i : grid0.Coords, EltTy.bits .f32 = 32 ∨ (Rect.block (s := S8x2048x2048) S1x1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S8x2048x128.size a
  hwx0_8 : ∀ i : grid0.Coords, EltTy.bits .f32 = 32 ∨ (Rect.block (s := S8x2048x128) S1x1024x128.size (cc0_transform_8 i) (hinb0_8 i)).WholeWords (EltTy.packing .f32)

variable [Facts₀]

def dot_S64x2048_S64x64_S2048x64_0_0_1_1_n_n : DotDims S64x2048 S64x64 S2048x64 where
  lhsContracting := [0]
  rhsContracting := [0]
  lhsNonContracting := [1]
  rhsNonContracting := [1]
  lhsBatch := []
  rhsBatch := []
  wf := dot_S64x2048_S64x64_S2048x64_0_0_1_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_call0_v0) S8x64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S64x64 : Shape := ⟨2, ![64, 64]⟩
abbrev S64 : Shape := ⟨1, ![64]⟩
abbrev S1x1x64 : Shape := ⟨3, ![1, 1, 64]⟩
abbrev S_ : Shape := ⟨0, ![]⟩
abbrev S8x2048 : Shape := ⟨2, ![8, 2048]⟩
abbrev S8x2048x1 : Shape := ⟨3, ![8, 2048, 1]⟩
abbrev S8x2048x128 : Shape := ⟨3, ![8, 2048, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S8x2048x2048, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8x2048x64, .f32⟩
  | .hbm, ⟨9, _⟩ => ⟨S1x1x64, .f32⟩
  | .hbm, ⟨10, _⟩ => ⟨S8x2048x64, .f32⟩
  | .hbm, ⟨11, _⟩ => ⟨S8x2048x64, .f32⟩
  | .hbm, ⟨12, _⟩ => ⟨S8x2048x64, .f32⟩
  | .hbm, ⟨13, _⟩ => ⟨S8x2048x64, .f32⟩
  | .hbm, ⟨14, _⟩ => ⟨S1x1x64, .f32⟩
  | .hbm, ⟨15, _⟩ => ⟨S8x2048x64, .f32⟩
  | .hbm, ⟨16, _⟩ => ⟨S8x2048x64, .f32⟩
  | .hbm, ⟨17, _⟩ => ⟨S8x2048x64, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x64, .f32⟩
  | .hbm, ⟨25, _⟩ => ⟨S8x2048x64, .f32⟩
  | .hbm, ⟨26, _⟩ => ⟨S8x2048x64, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x64, .f32⟩
  | .hbm, ⟨31, _⟩ => ⟨S8x2048x64, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x64, .f32⟩
  | .hbm, ⟨39, _⟩ => ⟨S8x2048x64, .f32⟩
  | .hbm, ⟨40, _⟩ => ⟨S8x2048x64, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x64, .f32⟩
  | .hbm, ⟨45, _⟩ => ⟨S8x2048x64, .f32⟩
  | .hbm, ⟨46, _⟩ => ⟨S8x2048x64, .f32⟩
  | .hbm, ⟨47, _⟩ => ⟨S8x2048x64, .f32⟩
  | .hbm, ⟨48, _⟩ => ⟨S8x2048x128, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S8x2048_d2 : S8x2048x64.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x64_0_1_2 : S8x2048x1.BroadcastsInDim S8x2048x64 (![0, 1, 2] : Fin 3 → Fin S8x2048x64.rank)
  concatenates_S8x2048x64_S8x2048x64_S8x2048x128_d2 : Shape.Concatenates [S8x2048x64, S8x2048x64] S8x2048x128 2
  dot_S8x2048x64_S64x64_S8x2048x64_2_0_01_1_n_n_wf : DotDims.WF S8x2048x64 S64x64 S8x2048x64 [2] [0] [0, 1] [1] [] []
  dot_S8x2048x2048_S8x2048x64_S8x2048x64_2_1_1_2_0_0_wf : DotDims.WF S8x2048x2048 S8x2048x64 S8x2048x64 [2] [1] [1] [2] [0] [0]

variable [Facts₀]

def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnSpec.lean ====
/-
  The function both programs compute, stated once over the argument arrays, index by index.

  For a batch `b`, a node `n` and a feature `d`:
    proj(b, n, d) = (Σ_e x(b, n, e) · W(e, d)) + bias(d)              -- the projected node features
    agg(b, n, d)  = Σ_k adj(b, n, k) · proj(b, k, d)                   -- aggregation along row n of the adjacency
    att(b, n, d)  = exp(agg(b, n, d) - M) / Σ_d' exp(agg(b, n, d') - M),   M = max_d' agg(b, n, d')
  (the softmax of row (b, n) over its 64 features, with the row's maximum subtracted first), and the result
  holds dyn(b, n, d) · att(b, n, d): from the forward adjacency and parameters in entries 0..63 of its last axis,
  from the backward ones in entries 64..127.

  The maximum is the fold of `max` from -∞ over the 64 features, so nothing here needs the entries to be finite:
  the two programs differ only in how they lay the arrays out and in which order they take the sums.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The extended real the pattern of f32's negative infinity denotes. It is kept as the pattern's value: both programs
    start their row maximum from this same word. -/
def negInf : EReal := Ideal.ofBits .f32 0xFF800000#32

/-- -∞ is neutral for `max`. -/
theorem max_negInf (y : EReal) : max negInf y = y := by
  unfold negInf; simp [Ideal.ofBits, Ideal.ieee]

/-- The maximum of a row of 64 entries, folded from -∞. -/
def rowMax (a : Fin 64 → EReal) : EReal := (Finset.univ : Finset (Fin 64)).fold max negInf a

/-- Entry `d` of the softmax of a row of 64 entries, the row's maximum subtracted before exponentiating. -/
def softmaxRow (a : Fin 64 → EReal) (d : Fin 64) : EReal :=
  Ideal.div (Ideal.exp (a d - rowMax a)) (∑ d' : Fin 64, Ideal.exp (a d' - rowMax a))

/-- The projected features: node `n` of batch `b` times the weight matrix, plus the bias. -/
def proj (x : (⟨3, ![8, 2048, 64]⟩ : Shape).Idx → EReal) (w : (⟨2, ![64, 64]⟩ : Shape).Idx → EReal)
    (bias : (⟨1, ![64]⟩ : Shape).Idx → EReal) (b : Fin 8) (n : Fin 2048) (d : Fin 64) : EReal :=
  (∑ e : Fin 64, x (ix3 b n e) * w (ix2 e d)) + bias (ix1 d)

/-- Row `n` of batch `b`'s adjacency applied to the features `h` of that batch. -/
def agg (adj : (⟨3, ![8, 2048, 2048]⟩ : Shape).Idx → EReal) (h : Fin 8 → Fin 2048 → Fin 64 → EReal)
    (b : Fin 8) (n : Fin 2048) (d : Fin 64) : EReal :=
  ∑ k : Fin 2048, adj (ix3 b n k) * h b k d

/-- One direction's code: the dynamic feature scaled by the attention over the aggregated projected features. -/
def code (x dyn : (⟨3, ![8, 2048, 64]⟩ : Shape).Idx → EReal) (adj : (⟨3, ![8, 2048, 2048]⟩ : Shape).Idx → EReal)
    (w : (⟨2, ![64, 64]⟩ : Shape).Idx → EReal) (bias : (⟨1, ![64]⟩ : Shape).Idx → EReal)
    (b : Fin 8) (n : Fin 2048) (d : Fin 64) : EReal :=
  dyn (ix3 b n d) * softmaxRow (fun d' => agg adj (proj x w bias) b n d') d

/-- The whole result: the forward code in entries 0..63 of the last axis, the backward code in entries 64..127. -/
def result (x dyn : (⟨3, ![8, 2048, 64]⟩ : Shape).Idx → EReal) (adjf adjb : (⟨3, ![8, 2048, 2048]⟩ : Shape).Idx → EReal)
    (wf : (⟨2, ![64, 64]⟩ : Shape).Idx → EReal) (bf : (⟨1, ![64]⟩ : Shape).Idx → EReal)
    (wb : (⟨2, ![64, 64]⟩ : Shape).Idx → EReal) (bb : (⟨1, ![64]⟩ : Shape).Idx → EReal) :
    (⟨3, ![8, 2048, 128]⟩ : Shape).Idx → EReal := fun i =>
  if h : (i 2).val < 64 then code x dyn adjf wf bf (i 0) (i 1) ⟨(i 2).val, h⟩
  else code x dyn adjb wb bb (i 0) (i 1) ⟨(i 2).val - 64, by have h2 : (i 2).val < 128 := (i 2).isLt; omega⟩

/-- Entries 0..63 of the last axis hold the forward code. -/
theorem result_fwd (x dyn : (⟨3, ![8, 2048, 64]⟩ : Shape).Idx → EReal) (adjf adjb : (⟨3, ![8, 2048, 2048]⟩ : Shape).Idx → EReal)
    (wf : (⟨2, ![64, 64]⟩ : Shape).Idx → EReal) (bf : (⟨1, ![64]⟩ : Shape).Idx → EReal)
    (wb : (⟨2, ![64, 64]⟩ : Shape).Idx → EReal) (bb : (⟨1, ![64]⟩ : Shape).Idx → EReal) (b : Fin 8) (n : Fin 2048) (d : Fin 64) :
    result x dyn adjf adjb wf bf wb bb (ix3 b n (⟨d.val, by have := d.isLt; omega⟩ : Fin 128)) = code x dyn adjf wf bf b n d := by
  unfold result
  exact dif_pos (show d.val < 64 from d.isLt)

/-- Entries 64..127 of the last axis hold the backward code. -/
theorem result_bwd (x dyn : (⟨3, ![8, 2048, 64]⟩ : Shape).Idx → EReal) (adjf adjb : (⟨3, ![8, 2048, 2048]⟩ : Shape).Idx → EReal)
    (wf : (⟨2, ![64, 64]⟩ : Shape).Idx → EReal) (bf : (⟨1, ![64]⟩ : Shape).Idx → EReal)
    (wb : (⟨2, ![64, 64]⟩ : Shape).Idx → EReal) (bb : (⟨1, ![64]⟩ : Shape).Idx → EReal) (b : Fin 8) (n : Fin 2048) (d : Fin 64) :
    result x dyn adjf adjb wf bf wb bb (ix3 b n (⟨d.val + 64, by have := d.isLt; omega⟩ : Fin 128)) = code x dyn adjb wb bb b n d := by
  unfold result
  refine (dif_neg (show ¬ d.val + 64 < 64 by omega)).trans ?_
  exact congrArg (code x dyn adjb wb bb b n) (Fin.ext (show d.val + 64 - 64 = d.val from Nat.add_sub_cancel _ _))

/-- An entry of the last axis lies in one half or the other. -/
theorem last_axis_cases (q : Fin 128) :
    (∃ d : Fin 64, q = ⟨d.val, by have := d.isLt; omega⟩) ∨ (∃ d : Fin 64, q = ⟨d.val + 64, by have := d.isLt; omega⟩) := by
  by_cases h : q.val < 64
  · exact Or.inl ⟨⟨q.val, h⟩, rfl⟩
  · exact Or.inr ⟨⟨q.val - 64, by have := q.isLt; omega⟩, Fin.ext (by show q.val = q.val - 64 + 64; omega)⟩

end Cert.AttnSpec

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KernelPayload.lean ====
/-
  What the kernel's body computes, as functions of the blocks it loads, read at an index over the extended reals.

  The body has two kinds of stored value.
  * `projSlab xs w bv`: one batch's projected features. The body holds that batch of the node features feature-major
    (`xs` is [1, 64, 2048]: feature `e`, node `n`), contracts the feature axis against the weights and adds the bias row:
      projSlab xs w bv (·, n, d) = (Σ_e xs(0, e, n) · w(e, d)) + bv(0, d).
  * `scaledAttn dynT adj hs`: a block of 1024 rows of one direction's code. `adj` is the block's rows of the adjacency,
    `hs` the batch's projected features, `dynT` the block of the dynamic feature, feature-major. With
    `a(r, d) = Σ_k adj(0, r, k) · hs(0, k, d)`:
      scaledAttn dynT adj hs (·, r, d) = dynT(0, d, r) · softmaxRow (a(r, ·)) d,
    where `rowSoftmax` is the softmax of each row of a [1024, 64] matrix as the body takes it: the row's maximum folded
    from -∞, subtracted, exponentials, divided by their row sum.
  Both matrix products accumulate into a zero block, so at an index each is the plain sum over the contracted coordinate.
-/
import proofs.«130610_g44976897524696_cont_8to1c4_646_24_alg».proof.Proof.Gen.KernelIdeal.Skeleton
import proofs.«130610_g44976897524696_cont_8to1c4_646_24_alg».proof.Proof.AttnSpec
import proofs.«130610_g44976897524696_cont_8to1c4_646_24_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.ColumnLayout Cert.AttnSpec

variable {F : FTy → Type} [FloatOps F]

/-! ## The stored values as functions of the loaded blocks -/

/-- One batch's projected features: the feature-major block contracted over its feature axis against the weights, plus
    the bias row broadcast over the nodes. -/
def projSlab (xs : Vec F S1x64x2048 .f32) (w : Vec F S64x64 .f32) (bv : Vec F S1x64 .f32) : FVec F S1x2048x64 .f32 :=
  shapeCast S1x2048x64
    (addf (matmul dot_S64x2048_S64x64_S2048x64_0_0_1_1_n_n none (shapeCast S64x2048 xs shapeCasts_S1x64x2048_S64x2048) w (constant S2048x64 .f32 0x00000000#32))
      (broadcastTo S2048x64 (shapeCast S1x64 bv shapeCasts_S1x64_S1x64) broadcasts_S1x64_S2048x64))
    shapeCasts_S2048x64_S1x2048x64

/-- The exponential of each entry of a [1024, 64] matrix less its row's maximum (folded from -∞). -/
def expRow (A : FVec F S1024x64 .f32) : FVec F S1024x64 .f32 :=
  exp (subf A (broadcastTo S1024x64 (shapeCast S1024x1
    (multiReduction .maximumf [1] S1024 A 0xFF800000#32 reduces_S1024x64_S1024 (.inl rfl) rfl) shapeCasts_S1024_S1024x1) broadcasts_S1024x1_S1024x64))

/-- The softmax of each row of a [1024, 64] matrix. -/
def rowSoftmax (A : FVec F S1024x64 .f32) : FVec F S1024x64 .f32 :=
  divf (expRow A) (broadcastTo S1024x64 (shapeCast S1024x1
    (multiReduction .add [1] S1024 (expRow A) 0x00000000#32 reduces_S1024x64_S1024 (.inl rfl) rfl) shapeCasts_S1024_S1024x1) broadcasts_S1024x1_S1024x64)

/-- A block of one direction's code: the dynamic feature block (feature-major, transposed back) times the row softmax of
    the adjacency rows applied to the batch's projected features. -/
def scaledAttn (dynT : Vec F S1x64x1024 .f32) (adj : Vec F S1x1024x2048 .f32) (hs : Vec F S1x2048x64 .f32) : FVec F S1x1024x64 .f32 :=
  shapeCast S1x1024x64
    (mulf (transpose S1024x64 [1, 0] (shapeCast S64x1024 dynT shapeCasts_S1x64x1024_S64x1024) transposes_S64x1024_p1_0_S1024x64)
      (rowSoftmax (matmul dot_S1024x2048_S2048x64_S1024x64_1_0_0_1_n_n none (shapeCast S1024x2048 adj shapeCasts_S1x1024x2048_S1024x2048)
        (shapeCast S2048x64 hs shapeCasts_S1x2048x64_S2048x64) (constant S1024x64 .f32 0x00000000#32))))
    shapeCasts_S1024x64_S1x1024x64

/-- The forward half's stored value is `scaledAttn` of the three blocks it reads. -/
theorem pay32_eq (v5 : Vec F S1x64x1024 .f32) (v8 : Vec F S1x1024x2048 .f32) (v11 : Vec F S1x2048x64 .f32) :
    k0_pay32 v5 v8 v11 = scaledAttn v5 v8 v11 := rfl

/-- The backward half's stored value likewise (its transposed feature block and its matrix product are computed before
    the forward half's store, the rest after it). -/
theorem pay1_eq (v5 : Vec F S1x64x1024 .f32) (v27 : Vec F S1x1024x2048 .f32) (v30 : Vec F S1x2048x64 .f32) :
    k0_pay1 (k0_pay31 v5) (k0_pay33 v27 v30) = scaledAttn v5 v27 v30 := rfl

/-! ## The two matrix products at an index -/

/-- The coordinates of the two products' operand indices that are not contracted are the output's own. -/
theorem proj_lhs_node (j : S2048x64.Idx) (q : dot_S64x2048_S64x64_S2048x64_0_0_1_1_n_n.contr.Idx) : (dot_S64x2048_S64x64_S2048x64_0_0_1_1_n_n.lhsIdx j q 1).val = (j 0).val := by
  unfold DotDims.lhsIdx
  rw [dif_neg (show ¬(1 : Fin S64x2048.rank) ∈ dot_S64x2048_S64x64_S2048x64_0_0_1_1_n_n.lhsBatch by decide), dif_pos (show (1 : Fin S64x2048.rank) ∈ dot_S64x2048_S64x64_S2048x64_0_0_1_1_n_n.lhsNonContracting by decide)]
  rfl
theorem proj_rhs_feat (j : S2048x64.Idx) (q : dot_S64x2048_S64x64_S2048x64_0_0_1_1_n_n.contr.Idx) : (dot_S64x2048_S64x64_S2048x64_0_0_1_1_n_n.rhsIdx j q 1).val = (j 1).val := by
  unfold DotDims.rhsIdx
  rw [dif_neg (show ¬(1 : Fin S64x64.rank) ∈ dot_S64x2048_S64x64_S2048x64_0_0_1_1_n_n.rhsBatch by decide), dif_pos (show (1 : Fin S64x64.rank) ∈ dot_S64x2048_S64x64_S2048x64_0_0_1_1_n_n.rhsNonContracting by decide)]
  rfl
theorem agg_lhs_row (j : S1024x64.Idx) (q : dot_S1024x2048_S2048x64_S1024x64_1_0_0_1_n_n.contr.Idx) : (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem agg_rhs_feat (j : S1024x64.Idx) (q : dot_S1024x2048_S2048x64_S1024x64_1_0_0_1_n_n.contr.Idx) : (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The projection's product contracts the FIRST axis of both operands: entry (n, d) is Σ_e L(e, n) · w(e, d). -/
theorem matmul_proj_apply (Lm : FVec Ideal S64x2048 .f32) (w : FVec Ideal S64x64 .f32) (n : Fin 2048) (d : Fin 64) :
    matmul dot_S64x2048_S64x64_S2048x64_0_0_1_1_n_n none Lm w (constant S2048x64 .f32 0x00000000#32) (ix2 n d) = ∑ e : Fin 64, Lm (ix2 e n) * w (ix2 e d) := by
  simp only [matmul]
  rw [Ideal.matmul_constant_zero_apply, ← Equiv.sum_comp (contrEquiv1 dot_S64x2048_S64x64_S2048x64_0_0_1_1_n_n 64 rfl rfl).symm]
  refine Finset.sum_congr rfl fun k _ => ?_
  have hk := contrEquiv1_symm_val dot_S64x2048_S64x64_S2048x64_0_0_1_1_n_n 64 rfl rfl k
  have el : dot_S64x2048_S64x64_S2048x64_0_0_1_1_n_n.lhsIdx (ix2 n d) ((contrEquiv1 dot_S64x2048_S64x64_S2048x64_0_0_1_1_n_n 64 rfl rfl).symm k) = ix2 k n := funext fun a => Fin.ext (by
    match a with
    | ⟨0, _⟩ => exact (dot_S64x2048_S64x64_S2048x64_0_0_1_1_n_n.lhsIdx_val_of_single rfl _ _).trans hk
    | ⟨1, _⟩ => exact proj_lhs_node _ _)
  have er : dot_S64x2048_S64x64_S2048x64_0_0_1_1_n_n.rhsIdx (ix2 n d) ((contrEquiv1 dot_S64x2048_S64x64_S2048x64_0_0_1_1_n_n 64 rfl rfl).symm k) = ix2 k d := funext fun a => Fin.ext (by
    match a with
    | ⟨0, _⟩ => exact (dot_S64x2048_S64x64_S2048x64_0_0_1_1_n_n.rhsIdx_val_of_single rfl _ _).trans hk
    | ⟨1, _⟩ => exact proj_rhs_feat _ _)
  rw [el, er]

/-- The aggregation's product is the ordinary one: entry (r, d) is Σ_k A(r, k) · H(k, d). -/
theorem matmul_agg_apply (A : FVec Ideal S1024x2048 .f32) (H : FVec Ideal S2048x64 .f32) (r : Fin 1024) (d : Fin 64) :
    matmul dot_S1024x2048_S2048x64_S1024x64_1_0_0_1_n_n none A H (constant S1024x64 .f32 0x00000000#32) (ix2 r d) = ∑ k : Fin 2048, A (ix2 r k) * H (ix2 k d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun a => Fin.ext (by
    match a with
    | ⟨0, _⟩ => exact agg_lhs_row _ _
    | ⟨1, _⟩ => exact (dot_S1024x2048_S2048x64_S1024x64_1_0_0_1_n_n.lhsIdx_val_of_single rfl _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun a => Fin.ext (by
    match a with
    | ⟨0, _⟩ => exact (dot_S1024x2048_S2048x64_S1024x64_1_0_0_1_n_n.rhsIdx_val_of_single rfl _ _).trans hk
    | ⟨1, _⟩ => exact agg_rhs_feat _ _)
  rw [el, er]

/-! ## The projected features at an index -/

theorem projSlab_apply (xs : Vec Ideal S1x64x2048 .f32) (w : Vec Ideal S64x64 .f32) (bv : Vec Ideal S1x64 .f32)
    (u : Fin 1) (n : Fin 2048) (d : Fin 64) :
    projSlab xs w bv (ix3 u n d) = (∑ e : Fin 64, xs (ix3 (0 : Fin 1) e n) * w (ix2 e d)) + bv (ix2 (0 : Fin 1) d) := by
  unfold projSlab
  refine (shapeCast_ab_1ab_apply _ shapeCasts_S2048x64_S1x2048x64 u n d).trans ?_
  refine (addf_apply _ _ _).trans ?_
  rw [matmul_proj_apply, broadcastTo_1b_ab_apply, shapeCast_self]
  refine congrArg (· + bv (ix2 (0 : Fin 1) d)) (Finset.sum_congr rfl fun e _ => ?_)
  rw [shapeCast_1ab_ab_apply]

/-! ## The row softmax at an index -/

/-- Row `r`'s index with the lane coordinate put back is (r, k). -/
theorem lift_row (h : S1024x64.Reduces [1] S1024) (r : Fin 1024) (k : Fin (S1024x64.size 1)) :
    h.lift (ix1 r) k = ix2 r (⟨k.val, k.isLt⟩ : Fin 64) := by
  funext c; apply Fin.ext
  match c with
  | ⟨0, _⟩ => rfl
  | ⟨1, _⟩ => rfl

/-- The body's row maximum is the specification's: the fold of `max` from -∞ over the row's 64 entries. -/
theorem rowMax_apply (A : FVec Ideal S1024x64 .f32) (r : Fin 1024) :
    multiReduction .maximumf [1] S1024 A 0xFF800000#32 reduces_S1024x64_S1024 (.inl rfl) rfl (ix1 r) = rowMax (fun d' => A (ix2 r d')) := by
  refine (Ideal.multiReduction_maximumf_single A _ reduces_S1024x64_S1024 (.inl rfl) rfl (ix1 r)).trans ?_
  have hf : (A ∘ reduces_S1024x64_S1024.lift (ix1 r)) = fun k : Fin 64 => A (ix2 r k) :=
    funext fun k => congrArg A (lift_row reduces_S1024x64_S1024 r k)
  rw [hf]
  rfl

theorem expRow_apply (A : FVec Ideal S1024x64 .f32) (r : Fin 1024) (d : Fin 64) :
    expRow A (ix2 r d) = Ideal.exp (A (ix2 r d) - rowMax (fun d' => A (ix2 r d'))) := by
  unfold expRow
  show Ideal.exp (A (ix2 r d) - broadcastTo S1024x64 _ broadcasts_S1024x1_S1024x64 (ix2 r d)) = _
  rw [broadcastTo_a1_ab_apply, shapeCast_a_a1_apply, rowMax_apply]

/-- The body's row sum (from the zero word, which is the sum's neutral element) is the sum over the row's 64 entries. -/
theorem rowSum_apply (E : FVec Ideal S1024x64 .f32) (hφ : FKind.Formats .f32)
    (hacc : (0x00000000#32 : BitVec 32) = FKind.add.neutral .f32 hφ) (r : Fin 1024) :
    multiReduction .add [1] S1024 E 0x00000000#32 reduces_S1024x64_S1024 hφ hacc (ix1 r) = ∑ k : Fin 64, E (ix2 r k) := by
  refine (Ideal.multiReduction_add_single E 0x00000000#32 reduces_S1024x64_S1024 hφ hacc (ix1 r)).trans ?_
  exact Finset.sum_congr rfl fun k _ => congrArg E (lift_row reduces_S1024x64_S1024 r k)

theorem rowSoftmax_apply (A : FVec Ideal S1024x64 .f32) (r : Fin 1024) (d : Fin 64) :
    rowSoftmax A (ix2 r d) = softmaxRow (fun d' => A (ix2 r d')) d := by
  unfold rowSoftmax softmaxRow
  show Ideal.div (expRow A (ix2 r d)) (broadcastTo S1024x64 _ broadcasts_S1024x1_S1024x64 (ix2 r d)) = _
  rw [broadcastTo_a1_ab_apply, shapeCast_a_a1_apply, expRow_apply]
  refine congrArg (Ideal.div _) ((rowSum_apply (expRow A) _ _ r).trans ?_)
  exact Finset.sum_congr rfl fun k _ => expRow_apply A r k

/-! ## A block of the code at an index -/

theorem scaledAttn_apply (dynT : Vec Ideal S1x64x1024 .f32) (adj : Vec Ideal S1x1024x2048 .f32) (hs : Vec Ideal S1x2048x64 .f32)
    (u : Fin 1) (r : Fin 1024) (d : Fin 64) :
    scaledAttn dynT adj hs (ix3 u r d)
      = dynT (ix3 (0 : Fin 1) d r) * softmaxRow (fun d' => ∑ k : Fin 2048, adj (ix3 (0 : Fin 1) r k) * hs (ix3 (0 : Fin 1) k d')) d := by
  unfold scaledAttn
  refine (shapeCast_ab_1ab_apply _ shapeCasts_S1024x64_S1x1024x64 u r d).trans ?_
  refine (mulf_apply _ _ _).trans ?_
  rw [transpose_ix2_apply, shapeCast_1ab_ab_apply, rowSoftmax_apply]
  refine congrArg (dynT (ix3 (0 : Fin 1) d r) * softmaxRow · d) (funext fun d' => ?_)
  rw [matmul_agg_apply]
  refine Finset.sum_congr rfl fun k _ => ?_
  rw [shapeCast_1ab_ab_apply, shapeCast_1ab_ab_apply]

end Cert.KernelIdeal.Payload

end
-- ==== Proof.KernelPieces.lean ====
/-
  What each case of the body leaves behind, as functions of the blocks it was given (over the extended reals).

  The body runs in two cases. At the grid's first point it first fills both scratch arrays — for each of the 8 batches one
  store of that batch's projected features — and then computes its output block; at every other point it only computes
  its output block, from the scratch arrays as the point before left them.

  * `projAll x0 w bv` is what the 8 stores leave in a scratch: entry (b, n, d) is
      Σ_e x0(b, e, n) · w(e, d) + bv(0, d)
    (`x0` is the node features, feature-major). Each store writes one batch's slab of it, and the slabs tile the scratch.
  * `outBlock dynT adjf adjb hf hb` is the output block: row r's entries 0..63 are
      dynT(0, d, r) · softmax_d (Σ_k adjf(0, r, k) · hf(k, d))
    and its entries 64..127 the same with `adjb`, `hb`. It is stored as two pieces, one per half of the last axis.
    `hf`, `hb` are the current batch's slabs of the two scratches: at the first point what the same run just stored
    (`projAll`), at any other point what the scratches held on entry.
  A piece list whose every payload is the restriction of one function to the piece's rectangle reads back as that function
  wherever a piece covers; that is how both the tiled scratches and the two-piece output block are read.
-/
import proofs.«130610_g44976897524696_cont_8to1c4_646_24_alg».proof.Proof.Gen.KernelIdeal.Frame
import proofs.«130610_g44976897524696_cont_8to1c4_646_24_alg».proof.Proof.KernelPayload
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Payload Idealize.ShloMosaic Idealize.ShloMosaic.TcCoe
  Idealize.ShloMosaic.ValueIdx Cert.AttnSpec Idealize.SL.Sem

/-! ## The two functions -/

/-- Entry (b, n, d) of the projected features, from the feature-major node features. -/
def projAt (x0 : Vec Ideal S8x64x2048 .f32) (w : Vec Ideal S64x64 .f32) (bv : Vec Ideal S1x64 .f32)
    (b : Fin 8) (n : Fin 2048) (d : Fin 64) : EReal :=
  (∑ e : Fin 64, x0 (ix3 b e n) * w (ix2 e d)) + bv (ix2 (0 : Fin 1) d)

/-- The projected features of all 8 batches: what a filled scratch holds. -/
def projAll (x0 : Vec Ideal S8x64x2048 .f32) (w : Vec Ideal S64x64 .f32) (bv : Vec Ideal S1x64 .f32) : Vec Ideal S8x2048x64 .f32 :=
  fun y => projAt x0 w bv (y 0) (y 1) (y 2)

/-- Row r, feature d of one direction's code within a block, from the batch's projected features `h`. -/
def attnAt (dynT : Vec Ideal S1x64x1024 .f32) (adj : Vec Ideal S1x1024x2048 .f32) (h : Fin 2048 → Fin 64 → EReal)
    (r : Fin 1024) (d : Fin 64) : EReal :=
  dynT (ix3 (0 : Fin 1) d r) * softmaxRow (fun d' => ∑ k : Fin 2048, adj (ix3 (0 : Fin 1) r k) * h k d') d

/-- The output block: the forward code in entries 0..63 of the last axis, the backward code in entries 64..127. -/
def outBlock (dynT : Vec Ideal S1x64x1024 .f32) (adjf adjb : Vec Ideal S1x1024x2048 .f32) (hf hb : Fin 2048 → Fin 64 → EReal) :
    Vec Ideal S1x1024x128 .f32 := fun y =>
  if h : (y 2).val < 64 then attnAt dynT adjf hf (y 1) ⟨(y 2).val, h⟩
  else attnAt dynT adjb hb (y 1) ⟨(y 2).val - 64, by have h2 : (y 2).val < 128 := (y 2).isLt; omega⟩

theorem outBlock_fwd (dynT : Vec Ideal S1x64x1024 .f32) (adjf adjb : Vec Ideal S1x1024x2048 .f32) (hf hb : Fin 2048 → Fin 64 → EReal)
    (u : Fin 1) (r : Fin 1024) (d : Fin 64) :
    outBlock dynT adjf adjb hf hb (ix3 u r (⟨d.val, by have := d.isLt; omega⟩ : Fin 128)) = attnAt dynT adjf hf r d := by
  unfold outBlock
  exact dif_pos (show d.val < 64 from d.isLt)

theorem outBlock_bwd (dynT : Vec Ideal S1x64x1024 .f32) (adjf adjb : Vec Ideal S1x1024x2048 .f32) (hf hb : Fin 2048 → Fin 64 → EReal)
    (u : Fin 1) (r : Fin 1024) (d : Fin 64) :
    outBlock dynT adjf adjb hf hb (ix3 u r (⟨d.val + 64, by have := d.isLt; omega⟩ : Fin 128)) = attnAt dynT adjb hb r d := by
  unfold outBlock
  refine (dif_neg (show ¬ d.val + 64 < 64 by omega)).trans ?_
  exact congrArg (attnAt dynT adjb hb r) (Fin.ext (show d.val + 64 - 64 = d.val from Nat.add_sub_cancel _ _))

/-! ## Rectangles -/

theorem hz2 : (![0, 0] : Fin 2 → Nat) = fun _ => 0 := funext fun a => by fin_cases a <;> rfl
theorem hz3 : (![0, 0, 0] : Fin 3 → Nat) = fun _ => 0 := funext fun a => by fin_cases a <;> rfl

/-- The batch a grid point works on. -/
def batchOf (i : grid0.Coords) : Fin 8 := ⟨(i 0).val, (i 0).isLt⟩

/-- The slab of batch `b` of an [8, A, B] array: local index (·, p, q) is the array's (b, p, q). -/
theorem slab_idx {A B : Nat} (off : Fin 3 → Nat)
    (inb : ∀ a, off a + (⟨3, ![1, A, B]⟩ : Shape).size a ≤ (⟨3, ![8, A, B]⟩ : Shape).size a)
    (b : Fin 8) (h0 : off 0 = b.val) (h1 : off 1 = 0) (h2 : off 2 = 0) (u : Fin 1) (p : Fin A) (q : Fin B) :
    (Rect.unit (s := (⟨3, ![8, A, B]⟩ : Shape)) off (⟨3, ![1, A, B]⟩ : Shape).size inb).emb (ix3 u p q) = ix3 b p q := by
  funext a; apply Fin.ext
  have hu : u.val = 0 := by omega
  match a with
  | ⟨0, _⟩ => show off 0 + 1 * u.val = b.val; omega
  | ⟨1, _⟩ => show off 1 + 1 * p.val = p.val; omega
  | ⟨2, _⟩ => show off 2 + 1 * q.val = q.val; omega

/-- The slab a point's scratch loads read starts at its batch. -/
theorem k0_off1_batch (i : grid0.Coords) : k0_off1 i 0 = (batchOf i).val := by
  show (BitVec.ofNat 32 (i 0).val).toNat = (i 0).val
  rw [BitVec.toNat_ofNat]
  exact Nat.mod_eq_of_lt (by have h : (i 0).val < 8 := (i 0).isLt; omega)

/-- Half `o` (0 or 64) of the output block's last axis: local index (u, r, d) is the block's (u, r, o + d). -/
theorem half_idx (o : Nat) (off : Fin 3 → Nat) (inb : ∀ a, off a + S1x1024x64.size a ≤ S1x1024x128.size a)
    (h0 : off 0 = 0) (h1 : off 1 = 0) (h2 : off 2 = o) (u : Fin 1) (r : Fin 1024) (d : Fin 64) (ho : o + d.val < 128) :
    (Rect.unit (s := S1x1024x128) off S1x1024x64.size inb).emb (ix3 u r d) = ix3 u r (⟨o + d.val, ho⟩ : Fin 128) := by
  funext a; apply Fin.ext
  match a with
  | ⟨0, _⟩ => show off 0 + 1 * u.val = u.val; omega
  | ⟨1, _⟩ => show off 1 + 1 * r.val = r.val; omega
  | ⟨2, _⟩ => show off 2 + 1 * d.val = o + d.val; omega

/-! ## One store of each kind is the restriction of its function -/

/-- A store of batch `k`'s projected features is `projAll` on that batch's slab. -/
theorem proj_piece {m2 : Memref sig .tc .vmem S8x64x2048 .f32} (h2 : m2.IsWhole) {mW : Memref sig .tc .vmem S64x64 .f32} (hW : mW.IsWhole)
    {mB : Memref sig .tc .vmem S1x64 .f32} (hB : mB.IsWhole) {k : ℕ}
    (inbL : ∀ a, (![k, 0, 0] : Fin 3 → Nat) a + S1x64x2048.size a ≤ S8x64x2048.size a)
    (inbW : ∀ a, (![0, 0] : Fin 2 → Nat) a + S64x64.size a ≤ S64x64.size a)
    (inbB : ∀ a, (![0, 0] : Fin 2 → Nat) a + S1x64.size a ≤ S1x64.size a)
    (inbS : ∀ a, (![k, 0, 0] : Fin 3 → Nat) a + S1x2048x64.size a ≤ S8x2048x64.size a)
    (x0 : Vec Ideal S8x64x2048 .f32) (w : Vec Ideal S64x64 .f32) (bv : Vec Ideal S1x64 .f32) (x : S1x2048x64.Idx) :
    projSlab (View.readAt (Elt Ideal) m2.view (Rect.unit (s := S8x64x2048) ![k, 0, 0] S1x64x2048.size inbL).toLoadRect (h2.unread x0))
        (View.readAt (Elt Ideal) mW.view (Rect.unit (s := S64x64) ![0, 0] S64x64.size inbW).toLoadRect (hW.unread w))
        (View.readAt (Elt Ideal) mB.view (Rect.unit (s := S1x64) ![0, 0] S1x64.size inbB).toLoadRect (hB.unread bv)) x
      = projAll x0 w bv ((Rect.unit (s := S8x2048x64) ![k, 0, 0] S1x2048x64.size inbS).emb x) := by
  have hk1 : k + 1 ≤ 8 := inbS 0
  have hk : k < 8 := by omega
  obtain ⟨u, n, d, rfl⟩ : ∃ (u : Fin 1) (n : Fin 2048) (d : Fin 64), x = ix3 u n d := ⟨x 0, x 1, x 2, eq_ix3 x⟩
  have eW : View.readAt (Elt Ideal) mW.view (Rect.unit (s := S64x64) ![0, 0] S64x64.size inbW).toLoadRect (hW.unread w) = w := by
    rw [View.readAt_eq_ld, hW.read_unread]; exact View.ld_unit_zero hz2 inbW w
  have eB : View.readAt (Elt Ideal) mB.view (Rect.unit (s := S1x64) ![0, 0] S1x64.size inbB).toLoadRect (hB.unread bv) = bv := by
    rw [View.readAt_eq_ld, hB.read_unread]; exact View.ld_unit_zero hz2 inbB bv
  have eX : ∀ e : Fin 64, View.readAt (Elt Ideal) m2.view (Rect.unit (s := S8x64x2048) ![k, 0, 0] S1x64x2048.size inbL).toLoadRect (h2.unread x0)
      (ix3 (0 : Fin 1) e n) = x0 (ix3 (⟨k, hk⟩ : Fin 8) e n) := fun e => by
    rw [View.readAt_eq_ld, h2.read_unread]
    exact congrArg x0 (slab_idx _ inbL ⟨k, hk⟩ rfl rfl rfl (0 : Fin 1) e n)
  rw [slab_idx _ inbS ⟨k, hk⟩ rfl rfl rfl, projSlab_apply, eW, eB]
  simp only [eX]
  rfl

/-- A block of one direction's code, from loads of the whole dynamic-feature and adjacency blocks. -/
theorem attn_loaded {m3 : Memref sig .tc .vmem S1x64x1024 .f32} (h3 : m3.IsWhole) {mA : Memref sig .tc .vmem S1x1024x2048 .f32} (hA : mA.IsWhole)
    (inb3 : ∀ a, (![0, 0, 0] : Fin 3 → Nat) a + S1x64x1024.size a ≤ S1x64x1024.size a)
    (inbA : ∀ a, (![0, 0, 0] : Fin 3 → Nat) a + S1x1024x2048.size a ≤ S1x1024x2048.size a)
    (dynT : Vec Ideal S1x64x1024 .f32) (adj : Vec Ideal S1x1024x2048 .f32) (HS : Vec Ideal S1x2048x64 .f32)
    (h : Fin 2048 → Fin 64 → EReal) (hHS : ∀ k d', HS (ix3 (0 : Fin 1) k d') = h k d') (u : Fin 1) (r : Fin 1024) (d : Fin 64) :
    scaledAttn (View.readAt (Elt Ideal) m3.view (Rect.unit (s := S1x64x1024) ![0, 0, 0] S1x64x1024.size inb3).toLoadRect (h3.unread dynT))
        (View.readAt (Elt Ideal) mA.view (Rect.unit (s := S1x1024x2048) ![0, 0, 0] S1x1024x2048.size inbA).toLoadRect (hA.unread adj)) HS (ix3 u r d)
      = attnAt dynT adj h r d := by
  have e3 : View.readAt (Elt Ideal) m3.view (Rect.unit (s := S1x64x1024) ![0, 0, 0] S1x64x1024.size inb3).toLoadRect (h3.unread dynT) = dynT := by
    rw [View.readAt_eq_ld, h3.read_unread]; exact View.ld_unit_zero hz3 inb3 dynT
  have eA : View.readAt (Elt Ideal) mA.view (Rect.unit (s := S1x1024x2048) ![0, 0, 0] S1x1024x2048.size inbA).toLoadRect (hA.unread adj) = adj := by
    rw [View.readAt_eq_ld, hA.read_unread]; exact View.ld_unit_zero hz3 inbA adj
  rw [e3, eA, scaledAttn_apply]
  simp only [hHS]
  rfl

/-- The store of the forward half is `outBlock` on entries 0..63 of the last axis; -/
theorem out_piece_fwd {m3 : Memref sig .tc .vmem S1x64x1024 .f32} (h3 : m3.IsWhole) {mA : Memref sig .tc .vmem S1x1024x2048 .f32} (hA : mA.IsWhole)
    (inb3 : ∀ a, (![0, 0, 0] : Fin 3 → Nat) a + S1x64x1024.size a ≤ S1x64x1024.size a)
    (inbA : ∀ a, (![0, 0, 0] : Fin 3 → Nat) a + S1x1024x2048.size a ≤ S1x1024x2048.size a)
    (inbO : ∀ a, (![0, 0, 0] : Fin 3 → Nat) a + S1x1024x64.size a ≤ S1x1024x128.size a)
    (dynT : Vec Ideal S1x64x1024 .f32) (adjf adjb : Vec Ideal S1x1024x2048 .f32) (HS : Vec Ideal S1x2048x64 .f32)
    (hf hb : Fin 2048 → Fin 64 → EReal) (hHS : ∀ k d', HS (ix3 (0 : Fin 1) k d') = hf k d') (x : S1x1024x64.Idx) :
    scaledAttn (View.readAt (Elt Ideal) m3.view (Rect.unit (s := S1x64x1024) ![0, 0, 0] S1x64x1024.size inb3).toLoadRect (h3.unread dynT))
        (View.readAt (Elt Ideal) mA.view (Rect.unit (s := S1x1024x2048) ![0, 0, 0] S1x1024x2048.size inbA).toLoadRect (hA.unread adjf)) HS x
      = outBlock dynT adjf adjb hf hb ((Rect.unit (s := S1x1024x128) ![0, 0, 0] S1x1024x64.size inbO).emb x) := by
  obtain ⟨u, r, d, rfl⟩ : ∃ (u : Fin 1) (r : Fin 1024) (d : Fin 64), x = ix3 u r d := ⟨x 0, x 1, x 2, eq_ix3 x⟩
  rw [half_idx 0 _ inbO rfl rfl rfl u r d (by have := d.isLt; omega), attn_loaded h3 hA inb3 inbA dynT adjf HS hf hHS]
  exact ((outBlock_fwd dynT adjf adjb hf hb u r d).symm.trans
    (congrArg (fun q : Fin 128 => outBlock dynT adjf adjb hf hb (ix3 u r q)) (Fin.ext (show d.val = 0 + d.val by omega))))

/-- … and the store of the backward half on entries 64..127. -/
theorem out_piece_bwd {m3 : Memref sig .tc .vmem S1x64x1024 .f32} (h3 : m3.IsWhole) {mA : Memref sig .tc .vmem S1x1024x2048 .f32} (hA : mA.IsWhole)
    (inb3 : ∀ a, (![0, 0, 0] : Fin 3 → Nat) a + S1x64x1024.size a ≤ S1x64x1024.size a)
    (inbA : ∀ a, (![0, 0, 0] : Fin 3 → Nat) a + S1x1024x2048.size a ≤ S1x1024x2048.size a)
    (inbO : ∀ a, (![0, 0, 64] : Fin 3 → Nat) a + S1x1024x64.size a ≤ S1x1024x128.size a)
    (dynT : Vec Ideal S1x64x1024 .f32) (adjf adjb : Vec Ideal S1x1024x2048 .f32) (HS : Vec Ideal S1x2048x64 .f32)
    (hf hb : Fin 2048 → Fin 64 → EReal) (hHS : ∀ k d', HS (ix3 (0 : Fin 1) k d') = hb k d') (x : S1x1024x64.Idx) :
    scaledAttn (View.readAt (Elt Ideal) m3.view (Rect.unit (s := S1x64x1024) ![0, 0, 0] S1x64x1024.size inb3).toLoadRect (h3.unread dynT))
        (View.readAt (Elt Ideal) mA.view (Rect.unit (s := S1x1024x2048) ![0, 0, 0] S1x1024x2048.size inbA).toLoadRect (hA.unread adjb)) HS x
      = outBlock dynT adjf adjb hf hb ((Rect.unit (s := S1x1024x128) ![0, 0, 64] S1x1024x64.size inbO).emb x) := by
  obtain ⟨u, r, d, rfl⟩ : ∃ (u : Fin 1) (r : Fin 1024) (d : Fin 64), x = ix3 u r d := ⟨x 0, x 1, x 2, eq_ix3 x⟩
  rw [half_idx 64 _ inbO rfl rfl rfl u r d (by have := d.isLt; omega), attn_loaded h3 hA inb3 inbA dynT adjb HS hb hHS]
  exact ((outBlock_bwd dynT adjf adjb hf hb u r d).symm.trans
    (congrArg (fun q : Fin 128 => outBlock dynT adjf adjb hf hb (ix3 u r q)) (Fin.ext (show d.val + 64 = 64 + d.val by omega))))

/-! ## The scratch loads -/

/-- A point's load of its batch's slab of a scratch holding `xs`. -/
theorem slab_read {m : Memref sig .tc .vmem S8x2048x64 .f32} (h : m.IsWhole) (i : grid0.Coords)
    (inb : ∀ a, (k0_off1 i) a + S1x2048x64.size a ≤ S8x2048x64.size a) (xs : Vec Ideal S8x2048x64 .f32) (k : Fin 2048) (d' : Fin 64) :
    View.readAt (Elt Ideal) m.view (Rect.unit (s := S8x2048x64) (k0_off1 i) S1x2048x64.size inb).toLoadRect (h.unread xs) (ix3 (0 : Fin 1) k d')
      = xs (ix3 (batchOf i) k d') := by
  rw [View.readAt_eq_ld, h.read_unread]
  exact congrArg xs (slab_idx _ inb (batchOf i) (k0_off1_batch i) rfl rfl (0 : Fin 1) k d')

/-- The same load right after stores whose pieces are the restrictions of `G` and cover the scratch: it reads `G`. -/
theorem slab_read_pieces (v : View sig .tc .vmem S8x2048x64 .f32) (L : List (View.Piece (Elt Ideal) S8x2048x64 .f32))
    (G : Vec Ideal S8x2048x64 .f32) (hL : ∀ p ∈ L, ∀ x : p.1.shape.Idx, p.2 x = G (p.1.emb x)) (hcov : ∀ y, ∃ p ∈ L, y ∈ p.1.set)
    (i : grid0.Coords) (inb : ∀ a, (k0_off1 i) a + S1x2048x64.size a ≤ S8x2048x64.size a) (k : Fin 2048) (d' : Fin 64) :
    View.readAt (Elt Ideal) v (Rect.unit (s := S8x2048x64) (k0_off1 i) S1x2048x64.size inb).toLoadRect (v.writes (Elt Ideal) v.junk L) (ix3 (0 : Fin 1) k d')
      = G (ix3 (batchOf i) k d') := by
  rw [View.readAt_writes_junk_eq_canon]
  refine (View.canon_apply_of_pieces G L hL _ (hcov _)).trans ?_
  exact congrArg G (slab_idx _ inb (batchOf i) (k0_off1_batch i) rfl rfl (0 : Fin 1) k d')

/-! ## The first point: the scratches -/

theorem pieces_A0 (c : Dev nD) (i : grid0.Coords) (arg2 : Memref sig .tc .vmem S8x64x2048 .f32) (harg2 : arg2.IsWhole) (arg3 : Memref sig .tc .vmem S1x64x1024 .f32) (harg3 : arg3.IsWhole) (arg4 : Memref sig .tc .vmem S1x1024x2048 .f32) (harg4 : arg4.IsWhole) (arg5 : Memref sig .tc .vmem S1x1024x2048 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1024x128 .f32) (harg10 : arg10.IsWhole) (arg11 : Memref sig .tc .vmem S8x2048x64 .f32) (harg11 : arg11.IsWhole) (arg12 : Memref sig .tc .vmem S8x2048x64 .f32) (harg12 : arg12.IsWhole) (hc0 : cond0_0 i) (x0 : Vec Ideal S8x64x2048 .f32) (x1 : Vec Ideal S1x64x1024 .f32) (x2 : Vec Ideal S1x1024x2048 .f32) (x3 : Vec Ideal S1x1024x2048 .f32) (x4 : Vec Ideal S64x64 .f32) (x5 : Vec Ideal S1x64 .f32) (x6 : Vec Ideal S64x64 .f32) (x7 : Vec Ideal S1x64 .f32) :
    ∀ p ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, ∀ x : p.1.shape.Idx, p.2 x = projAll x0 x4 x5 (p.1.emb x) := by
  unfold kernelRun0_A
  dsimp only
  sl_unfold_words
  intro p hp x
  simp only [List.mem_cons, List.not_mem_nil, or_false] at hp
  rcases hp with rfl | rfl | rfl | rfl | rfl | rfl | rfl | rfl <;> (refine proj_piece harg2 harg6 harg7 ?_ ?_ ?_ ?_ x0 x4 x5 x <;> decide)

theorem pieces_A1 (c : Dev nD) (i : grid0.Coords) (arg2 : Memref sig .tc .vmem S8x64x2048 .f32) (harg2 : arg2.IsWhole) (arg3 : Memref sig .tc .vmem S1x64x1024 .f32) (harg3 : arg3.IsWhole) (arg4 : Memref sig .tc .vmem S1x1024x2048 .f32) (harg4 : arg4.IsWhole) (arg5 : Memref sig .tc .vmem S1x1024x2048 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1024x128 .f32) (harg10 : arg10.IsWhole) (arg11 : Memref sig .tc .vmem S8x2048x64 .f32) (harg11 : arg11.IsWhole) (arg12 : Memref sig .tc .vmem S8x2048x64 .f32) (harg12 : arg12.IsWhole) (hc0 : cond0_0 i) (x0 : Vec Ideal S8x64x2048 .f32) (x1 : Vec Ideal S1x64x1024 .f32) (x2 : Vec Ideal S1x1024x2048 .f32) (x3 : Vec Ideal S1x1024x2048 .f32) (x4 : Vec Ideal S64x64 .f32) (x5 : Vec Ideal S1x64 .f32) (x6 : Vec Ideal S64x64 .f32) (x7 : Vec Ideal S1x64 .f32) :
    ∀ p ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, ∀ x : p.1.shape.Idx, p.2 x = projAll x0 x6 x7 (p.1.emb x) := by
  unfold kernelRun0_A
  dsimp only
  sl_unfold_words
  intro p hp x
  simp only [List.mem_cons, List.not_mem_nil, or_false] at hp
  rcases hp with rfl | rfl | rfl | rfl | rfl | rfl | rfl | rfl <;> (refine proj_piece harg2 harg8 harg9 ?_ ?_ ?_ ?_ x0 x6 x7 x <;> decide)

/-- After the first point the forward scratch holds the projected features of all batches; -/
theorem sout_A_0 (c : Dev nD) (i : grid0.Coords) (arg2 : Memref sig .tc .vmem S8x64x2048 .f32) (harg2 : arg2.IsWhole) (arg3 : Memref sig .tc .vmem S1x64x1024 .f32) (harg3 : arg3.IsWhole) (arg4 : Memref sig .tc .vmem S1x1024x2048 .f32) (harg4 : arg4.IsWhole) (arg5 : Memref sig .tc .vmem S1x1024x2048 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1024x128 .f32) (harg10 : arg10.IsWhole) (arg11 : Memref sig .tc .vmem S8x2048x64 .f32) (harg11 : arg11.IsWhole) (arg12 : Memref sig .tc .vmem S8x2048x64 .f32) (harg12 : arg12.IsWhole) (hc0 : cond0_0 i) (x0 : Vec Ideal S8x64x2048 .f32) (x1 : Vec Ideal S1x64x1024 .f32) (x2 : Vec Ideal S1x1024x2048 .f32) (x3 : Vec Ideal S1x1024x2048 .f32) (x4 : Vec Ideal S64x64 .f32) (x5 : Vec Ideal S1x64 .f32) (x6 : Vec Ideal S64x64 .f32) (x7 : Vec Ideal S1x64 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = projAll x0 x4 x5 := by
  unfold sout0_A_0
  rw [View.read_writes_junk_eq_canon]
  funext y
  exact View.canon_apply_of_pieces (projAll x0 x4 x5) _ (pieces_A0 c i arg2 harg2 arg3 harg3 arg4 harg4 arg5 harg5 arg6 harg6 arg7 harg7 arg8 harg8 arg9 harg9 arg10 harg10 arg11 harg11 arg12 harg12 hc0 x0 x1 x2 x3 x4 x5 x6 x7) y (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 y)

/-- … and the backward scratch those of the backward parameters. -/
theorem sout_A_1 (c : Dev nD) (i : grid0.Coords) (arg2 : Memref sig .tc .vmem S8x64x2048 .f32) (harg2 : arg2.IsWhole) (arg3 : Memref sig .tc .vmem S1x64x1024 .f32) (harg3 : arg3.IsWhole) (arg4 : Memref sig .tc .vmem S1x1024x2048 .f32) (harg4 : arg4.IsWhole) (arg5 : Memref sig .tc .vmem S1x1024x2048 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1024x128 .f32) (harg10 : arg10.IsWhole) (arg11 : Memref sig .tc .vmem S8x2048x64 .f32) (harg11 : arg11.IsWhole) (arg12 : Memref sig .tc .vmem S8x2048x64 .f32) (harg12 : arg12.IsWhole) (hc0 : cond0_0 i) (x0 : Vec Ideal S8x64x2048 .f32) (x1 : Vec Ideal S1x64x1024 .f32) (x2 : Vec Ideal S1x1024x2048 .f32) (x3 : Vec Ideal S1x1024x2048 .f32) (x4 : Vec Ideal S64x64 .f32) (x5 : Vec Ideal S1x64 .f32) (x6 : Vec Ideal S64x64 .f32) (x7 : Vec Ideal S1x64 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = projAll x0 x6 x7 := by
  unfold sout0_A_1
  rw [View.read_writes_junk_eq_canon]
  funext y
  exact View.canon_apply_of_pieces (projAll x0 x6 x7) _ (pieces_A1 c i arg2 harg2 arg3 harg3 arg4 harg4 arg5 harg5 arg6 harg6 arg7 harg7 arg8 harg8 arg9 harg9 arg10 harg10 arg11 harg11 arg12 harg12 hc0 x0 x1 x2 x3 x4 x5 x6 x7) y (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7 y)

/-! ## The output block in each case -/

/-- Any point but the first: the block from the scratches as they were on entry. -/
theorem out_B (c : Dev nD) (i : grid0.Coords) (arg2 : Memref sig .tc .vmem S8x64x2048 .f32) (harg2 : arg2.IsWhole) (arg3 : Memref sig .tc .vmem S1x64x1024 .f32) (harg3 : arg3.IsWhole) (arg4 : Memref sig .tc .vmem S1x1024x2048 .f32) (harg4 : arg4.IsWhole) (arg5 : Memref sig .tc .vmem S1x1024x2048 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1024x128 .f32) (harg10 : arg10.IsWhole) (arg11 : Memref sig .tc .vmem S8x2048x64 .f32) (harg11 : arg11.IsWhole) (arg12 : Memref sig .tc .vmem S8x2048x64 .f32) (harg12 : arg12.IsWhole) (hc0 : ¬cond0_0 i) (x0 : Vec Ideal S8x64x2048 .f32) (x1 : Vec Ideal S1x64x1024 .f32) (x2 : Vec Ideal S1x1024x2048 .f32) (x3 : Vec Ideal S1x1024x2048 .f32) (x4 : Vec Ideal S64x64 .f32) (x5 : Vec Ideal S1x64 .f32) (x6 : Vec Ideal S64x64 .f32) (x7 : Vec Ideal S1x64 .f32) (xs0 xs1 : Vec Ideal S8x2048x64 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1
      = outBlock x1 x2 x3 (fun k d' => xs0 (ix3 (batchOf i) k d')) (fun k d' => xs1 (ix3 (batchOf i) k d')) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  funext y
  refine View.canon_apply_of_pieces _ _ ?_ y (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 y)
  unfold kernelRun0_B
  dsimp only
  sl_unfold_words
  intro p hp x
  simp only [List.mem_cons, List.not_mem_nil, or_false] at hp
  rcases hp with rfl | rfl
  · refine out_piece_bwd harg3 harg5 ?_ ?_ ?_ x1 x2 x3 _ _ _ (fun k d' => slab_read harg12 i (k0_off1_inb i) xs1 k d') x <;> decide
  · refine out_piece_fwd harg3 harg4 ?_ ?_ ?_ x1 x2 x3 _ _ _ (fun k d' => slab_read harg11 i (k0_off1_inb i) xs0 k d') x <;> decide

/-- The first point: the block from the scratches the same run has just filled. -/
theorem out_A (c : Dev nD) (i : grid0.Coords) (arg2 : Memref sig .tc .vmem S8x64x2048 .f32) (harg2 : arg2.IsWhole) (arg3 : Memref sig .tc .vmem S1x64x1024 .f32) (harg3 : arg3.IsWhole) (arg4 : Memref sig .tc .vmem S1x1024x2048 .f32) (harg4 : arg4.IsWhole) (arg5 : Memref sig .tc .vmem S1x1024x2048 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1024x128 .f32) (harg10 : arg10.IsWhole) (arg11 : Memref sig .tc .vmem S8x2048x64 .f32) (harg11 : arg11.IsWhole) (arg12 : Memref sig .tc .vmem S8x2048x64 .f32) (harg12 : arg12.IsWhole) (hc0 : cond0_0 i) (x0 : Vec Ideal S8x64x2048 .f32) (x1 : Vec Ideal S1x64x1024 .f32) (x2 : Vec Ideal S1x1024x2048 .f32) (x3 : Vec Ideal S1x1024x2048 .f32) (x4 : Vec Ideal S64x64 .f32) (x5 : Vec Ideal S1x64 .f32) (x6 : Vec Ideal S64x64 .f32) (x7 : Vec Ideal S1x64 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7
      = outBlock x1 x2 x3 (fun k d' => projAll x0 x4 x5 (ix3 (batchOf i) k d')) (fun k d' => projAll x0 x6 x7 (ix3 (batchOf i) k d')) := by
  have hL0 := pieces_A0 c i arg2 harg2 arg3 harg3 arg4 harg4 arg5 harg5 arg6 harg6 arg7 harg7 arg8 harg8 arg9 harg9 arg10 harg10 arg11 harg11 arg12 harg12 hc0 x0 x1 x2 x3 x4 x5 x6 x7
  have hL1 := pieces_A1 c i arg2 harg2 arg3 harg3 arg4 harg4 arg5 harg5 arg6 harg6 arg7 harg7 arg8 harg8 arg9 harg9 arg10 harg10 arg11 harg11 arg12 harg12 hc0 x0 x1 x2 x3 x4 x5 x6 x7
  have hC0 := scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7
  have hC1 := scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  funext y
  refine View.canon_apply_of_pieces _ _ ?_ y (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7 y)
  unfold kernelRun0_A at hL0 hL1 hC0 hC1 ⊢
  dsimp only at hL0 hL1 hC0 hC1 ⊢
  sl_unfold_words
  intro p hp x
  simp only [List.mem_cons, List.not_mem_nil, or_false] at hp
  rcases hp with rfl | rfl
  · refine out_piece_bwd harg3 harg5 ?_ ?_ ?_ x1 x2 x3 _ _ _
      (fun k d' => slab_read_pieces arg12.view _ (projAll x0 x6 x7) hL1 hC1 i (k0_off1_inb i) k d') x <;> decide
  · refine out_piece_fwd harg3 harg4 ?_ ?_ ?_ x1 x2 x3 _ _ _
      (fun k d' => slab_read_pieces arg11.view _ (projAll x0 x4 x5) hL0 hC0 i (k0_off1_inb i) k d') x <;> decide

end Cert.KernelIdeal.Pieces

end
-- ==== Proof.KernelValue.lean ====
/-
  The kernel's result array is the specification of the argument arrays.

  The grid has 16 points: 8 batches by 2 blocks of 1024 rows, batch-major. The output window's block at point (b, ib) is
  rows ib·1024 .. ib·1024 + 1023 of batch b, all 128 entries of the last axis; these 16 blocks tile the result array.

  * The scratches. The first point fills both scratch arrays with the projected features of all batches; no later point
    stores into them. So after EVERY point they hold those projected features: by induction on the point, the first point
    by what its eight stores leave, each later point because it leaves the scratches as it found them.
  * One block. At point (b, ib) the body's output block is, at row r, the code of node n = ib·1024 + r of batch b: its
    adjacency blocks are rows n of the two adjacencies, its dynamic-feature block the same rows of the (host-transposed)
    dynamic feature, and its scratch slabs are batch b of the projected features. The host operations before the region
    only re-lay the inputs: the node and dynamic features are transposed to feature-major, the biases become rows.
  * All blocks. Index (b, n, q) of the result lies in the block of the point (b, n / 1024), so the array after the run is
    the specification everywhere.
-/
import proofs.«130610_g44976897524696_cont_8to1c4_646_24_alg».proof.Proof.Gen.KernelIdeal.Value
import proofs.«130610_g44976897524696_cont_8to1c4_646_24_alg».proof.Proof.KernelPieces
import Idealize.ShloMosaic.Lib.Pipeline.Value
import Idealize.ShloMosaic.Lib.StableHlo.Run
import Idealize.ShloMosaic.Lib.ValueLayout

set_option maxRecDepth 16384

noncomputable section

namespace Cert.KernelIdeal.BlockValue

open Cert.KernelIdeal Cert.KernelIdeal.Gen Cert.KernelIdeal.Pieces Idealize.ShloMosaic Idealize.ShloMosaic.TcCoe
  Idealize.ShloMosaic.ValueIdx Cert.AttnSpec Idealize.SL.Sem
open Idealize.ShloMosaic.Pipeline (Dat)

variable (m : (ℓ : Loc nD τ sig) → Buf (Elt Ideal) ℓ) (ρ : Dev nD → PrngReg)

/-- The argument arrays as launched, as functions of their indices. -/
abbrev A0 (c : Dev nD) : S8x2048x64.Idx → EReal := m ((c : Thread nD τ).loc main_arg0)
abbrev A1 (c : Dev nD) : S8x2048x64.Idx → EReal := m ((c : Thread nD τ).loc main_arg1)
abbrev A2 (c : Dev nD) : S8x2048x2048.Idx → EReal := m ((c : Thread nD τ).loc main_arg2)
abbrev A3 (c : Dev nD) : S8x2048x2048.Idx → EReal := m ((c : Thread nD τ).loc main_arg3)
abbrev A4 (c : Dev nD) : S64x64.Idx → EReal := m ((c : Thread nD τ).loc main_arg4)
abbrev A5 (c : Dev nD) : S64.Idx → EReal := m ((c : Thread nD τ).loc main_arg5)
abbrev A6 (c : Dev nD) : S64x64.Idx → EReal := m ((c : Thread nD τ).loc main_arg6)
abbrev A7 (c : Dev nD) : S64.Idx → EReal := m ((c : Thread nD τ).loc main_arg7)

/-- The result array the claim is about: the specification of the eight argument arrays as launched. -/
def resultArr (c : Dev nD) : Buf (Elt Ideal) ((c : Thread nD τ).loc main_v0) :=
  result (A0 m c) (A1 m c) (A2 m c) (A3 m c) (A4 m c) (A5 m c) (A6 m c) (A7 m c)

/-! ## The grid -/

theorem hN : cfg0.N = 16 := N_0

/-- The grid's first point. -/
def first : Fin cfg0.N := ⟨0, by rw [hN]; decide⟩

/-- The batch point `t` works on, and the array row its block's row `r` is. -/
def bOf (t : Fin cfg0.N) : Fin 8 := batchOf (grid0.coords t)
def rowOf (t : Fin cfg0.N) (r : Fin 1024) : Fin 2048 :=
  ⟨(grid0.coords t 1).val * 1024 + r.val, by have h : (grid0.coords t 1).val < 2 := (grid0.coords t 1).isLt; have := r.isLt; omega⟩

/-- The printed index maps, decided over the 16 points: the dynamic-feature window moves on its first and last axes, the
    adjacency and output windows on their first two, each by the point's batch and row block. -/
theorem idx_facts : ∀ t : Fin cfg0.N,
    win0_1.index t (0 : Fin 3) = (grid0.coords t 0).val ∧ win0_1.index t (1 : Fin 3) = 0 ∧ win0_1.index t (2 : Fin 3) = (grid0.coords t 1).val
    ∧ win0_2.index t (0 : Fin 3) = (grid0.coords t 0).val ∧ win0_2.index t (1 : Fin 3) = (grid0.coords t 1).val ∧ win0_2.index t (2 : Fin 3) = 0
    ∧ win0_3.index t (0 : Fin 3) = (grid0.coords t 0).val ∧ win0_3.index t (1 : Fin 3) = (grid0.coords t 1).val ∧ win0_3.index t (2 : Fin 3) = 0
    ∧ win0_8.index t (0 : Fin 3) = (grid0.coords t 0).val ∧ win0_8.index t (1 : Fin 3) = (grid0.coords t 1).val ∧ win0_8.index t (2 : Fin 3) = 0 :=
  (by decide +kernel : ∀ t : Fin grid0.N, _)

/-- The windows of whole arrays stay at block 0. -/
theorem idx_whole : ∀ t : Fin cfg0.N,
    win0_0.index t (0 : Fin 3) = 0 ∧ win0_0.index t (1 : Fin 3) = 0 ∧ win0_0.index t (2 : Fin 3) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

/-- Every (batch, row block) is some point's. -/
theorem idx_onto : ∀ (q0 : Fin 8) (q1 : Fin 2), ∃ t : Fin cfg0.N, win0_8.index t = ![q0.val, q1.val, 0] :=
  (by decide +kernel : ∀ (q0 : Fin 8) (q1 : Fin 2), ∃ t : Fin grid0.N, win0_8.index t = ![q0.val, q1.val, 0])

/-! ## The arrays as the region finds them -/

theorem V_xT (c : Dev nD) : (V m c main_call0_v0 : S8x64x2048.Idx → EReal)
    = transpose S8x64x2048 [0, 2, 1] (A0 m c) transposes_S8x2048x64_S8x64x2048_0_2_1 := by
  dsimp only [Gen.V, Gen.hostOps0]; after_results; rfl

theorem V_dynT (c : Dev nD) : (V m c main_call0_v1 : S8x64x2048.Idx → EReal)
    = transpose S8x64x2048 [0, 2, 1] (A1 m c) transposes_S8x2048x64_S8x64x2048_0_2_1 := by
  dsimp only [Gen.V, Gen.hostOps0]; after_results; rfl

theorem V_bf (c : Dev nD) : (V m c main_call0_v2 : S1x64.Idx → EReal) = shapeCast S1x64 (A5 m c) shapeCasts_S64_S1x64 := by
  dsimp only [Gen.V, Gen.hostOps0]; after_results; rfl

theorem V_bb (c : Dev nD) : (V m c main_call0_v3 : S1x64.Idx → EReal) = shapeCast S1x64 (A7 m c) shapeCasts_S64_S1x64 := by
  dsimp only [Gen.V, Gen.hostOps0]; after_results; rfl

/-! ## The windows' blocks at an index -/

/-- The whole feature-major node features. -/
theorem iblk0_apply (c : Dev nD) (t : Fin cfg0.N) (b : Fin 8) (e : Fin 64) (n : Fin 2048) :
    (iblk m c 0 t : S8x64x2048.Idx → EReal) (ix3 b e n) = (A0 m c) (ix3 b n e) := by
  obtain ⟨e0, e1, e2, -⟩ := idx_whole t
  unfold iblk
  rw [View.read_apply]
  show V m c main_call0_v0 _ = _
  have hi : ((cfg0.win 0).blk t).view.emb (ix3 b e n) = ix3 b e n := by
    funext a; apply Fin.ext
    match a with
    | ⟨0, _⟩ => show win0_0.index t (0 : Fin 3) * 8 + 1 * b.val = b.val; omega
    | ⟨1, _⟩ => show win0_0.index t (1 : Fin 3) * 64 + 1 * e.val = e.val; omega
    | ⟨2, _⟩ => show win0_0.index t (2 : Fin 3) * 2048 + 1 * n.val = n.val; omega
  rw [hi, V_xT]
  exact transpose_ix3_021_apply _ transposes_S8x2048x64_S8x64x2048_0_2_1 b e n

/-- A weight matrix, whole. -/
theorem iblk4_apply (c : Dev nD) (t : Fin cfg0.N) (e d : Fin 64) :
    (iblk m c 4 t : S64x64.Idx → EReal) (ix2 e d) = (A4 m c) (ix2 e d) := by
  obtain ⟨-, -, -, e0, e1, -⟩ := idx_whole t
  unfold iblk
  rw [View.read_apply]
  show V m c main_arg4 _ = _
  have hi : ((cfg0.win 4).blk t).view.emb (ix2 e d) = ix2 e d := by
    funext a; apply Fin.ext
    match a with
    | ⟨0, _⟩ => show win0_4.index t (0 : Fin 2) * 64 + 1 * e.val = e.val; omega
    | ⟨1, _⟩ => show win0_4.index t (1 : Fin 2) * 64 + 1 * d.val = d.val; omega
  rw [hi, V_main_arg4]

theorem iblk6_apply (c : Dev nD) (t : Fin cfg0.N) (e d : Fin 64) :
    (iblk m c 6 t : S64x64.Idx → EReal) (ix2 e d) = (A6 m c) (ix2 e d) := by
  obtain ⟨-, -, -, -, -, -, -, e0, e1, -⟩ := idx_whole t
  unfold iblk
  rw [View.read_apply]
  show V m c main_arg6 _ = _
  have hi : ((cfg0.win 6).blk t).view.emb (ix2 e d) = ix2 e d := by
    funext a; apply Fin.ext
    match a with
    | ⟨0, _⟩ => show win0_6.index t (0 : Fin 2) * 64 + 1 * e.val = e.val; omega
    | ⟨1, _⟩ => show win0_6.index t (1 : Fin 2) * 64 + 1 * d.val = d.val; omega
  rw [hi, V_main_arg6]

/-- A bias, as the row the host made of it. -/
theorem iblk5_apply (c : Dev nD) (t : Fin cfg0.N) (d : Fin 64) :
    (iblk m c 5 t : S1x64.Idx → EReal) (ix2 (0 : Fin 1) d) = (A5 m c) (ix1 d) := by
  obtain ⟨-, -, -, -, -, e0, e1, -⟩ := idx_whole t
  unfold iblk
  rw [View.read_apply]
  show V m c main_call0_v2 _ = _
  have hi : ((cfg0.win 5).blk t).view.emb (ix2 (0 : Fin 1) d) = ix2 (0 : Fin 1) d := by
    funext a; apply Fin.ext
    match a with
    | ⟨0, _⟩ => show win0_5.index t (0 : Fin 2) * 1 + 1 * 0 = 0; omega
    | ⟨1, _⟩ => show win0_5.index t (1 : Fin 2) * 64 + 1 * d.val = d.val; omega
  rw [hi, V_bf]
  exact shapeCast_a_1a_apply _ shapeCasts_S64_S1x64 (0 : Fin 1) d

theorem iblk7_apply (c : Dev nD) (t : Fin cfg0.N) (d : Fin 64) :
    (iblk m c 7 t : S1x64.Idx → EReal) (ix2 (0 : Fin 1) d) = (A7 m c) (ix1 d) := by
  obtain ⟨-, -, -, -, -, -, -, -, -, e0, e1⟩ := idx_whole t
  unfold iblk
  rw [View.read_apply]
  show V m c main_call0_v3 _ = _
  have hi : ((cfg0.win 7).blk t).view.emb (ix2 (0 : Fin 1) d) = ix2 (0 : Fin 1) d := by
    funext a; apply Fin.ext
    match a with
    | ⟨0, _⟩ => show win0_7.index t (0 : Fin 2) * 1 + 1 * 0 = 0; omega
    | ⟨1, _⟩ => show win0_7.index t (1 : Fin 2) * 64 + 1 * d.val = d.val; omega
  rw [hi, V_bb]
  exact shapeCast_a_1a_apply _ shapeCasts_S64_S1x64 (0 : Fin 1) d

/-- The dynamic-feature block of point `t`: feature d of the block's row r is the dynamic feature of node `rowOf t r`. -/
theorem iblk1_apply (c : Dev nD) (t : Fin cfg0.N) (d : Fin 64) (r : Fin 1024) :
    (iblk m c 1 t : S1x64x1024.Idx → EReal) (ix3 (0 : Fin 1) d r) = (A1 m c) (ix3 (bOf t) (rowOf t r) d) := by
  obtain ⟨e0, e1, e2, -⟩ := idx_facts t
  unfold iblk
  rw [View.read_apply]
  show V m c main_call0_v1 _ = _
  have hi : ((cfg0.win 1).blk t).view.emb (ix3 (0 : Fin 1) d r) = ix3 (bOf t) d (rowOf t r) := by
    funext a; apply Fin.ext
    match a with
    | ⟨0, _⟩ => show win0_1.index t (0 : Fin 3) * 1 + 1 * 0 = (grid0.coords t 0).val; omega
    | ⟨1, _⟩ => show win0_1.index t (1 : Fin 3) * 64 + 1 * d.val = d.val; omega
    | ⟨2, _⟩ => show win0_1.index t (2 : Fin 3) * 1024 + 1 * r.val = (grid0.coords t 1).val * 1024 + r.val; omega
  rw [hi, V_dynT]
  exact transpose_ix3_021_apply _ transposes_S8x2048x64_S8x64x2048_0_2_1 (bOf t) d (rowOf t r)

/-- The adjacency blocks of point `t`: the block's row r is row `rowOf t r` of batch `bOf t`. -/
theorem iblk2_apply (c : Dev nD) (t : Fin cfg0.N) (r : Fin 1024) (k : Fin 2048) :
    (iblk m c 2 t : S1x1024x2048.Idx → EReal) (ix3 (0 : Fin 1) r k) = (A2 m c) (ix3 (bOf t) (rowOf t r) k) := by
  obtain ⟨-, -, -, e0, e1, e2, -⟩ := idx_facts t
  unfold iblk
  rw [View.read_apply]
  show V m c main_arg2 _ = _
  have hi : ((cfg0.win 2).blk t).view.emb (ix3 (0 : Fin 1) r k) = ix3 (bOf t) (rowOf t r) k := by
    funext a; apply Fin.ext
    match a with
    | ⟨0, _⟩ => show win0_2.index t (0 : Fin 3) * 1 + 1 * 0 = (grid0.coords t 0).val; omega
    | ⟨1, _⟩ => show win0_2.index t (1 : Fin 3) * 1024 + 1 * r.val = (grid0.coords t 1).val * 1024 + r.val; omega
    | ⟨2, _⟩ => show win0_2.index t (2 : Fin 3) * 2048 + 1 * k.val = k.val; omega
  rw [hi, V_main_arg2]

theorem iblk3_apply (c : Dev nD) (t : Fin cfg0.N) (r : Fin 1024) (k : Fin 2048) :
    (iblk m c 3 t : S1x1024x2048.Idx → EReal) (ix3 (0 : Fin 1) r k) = (A3 m c) (ix3 (bOf t) (rowOf t r) k) := by
  obtain ⟨-, -, -, -, -, -, e0, e1, e2, -⟩ := idx_facts t
  unfold iblk
  rw [View.read_apply]
  show V m c main_arg3 _ = _
  have hi : ((cfg0.win 3).blk t).view.emb (ix3 (0 : Fin 1) r k) = ix3 (bOf t) (rowOf t r) k := by
    funext a; apply Fin.ext
    match a with
    | ⟨0, _⟩ => show win0_3.index t (0 : Fin 3) * 1 + 1 * 0 = (grid0.coords t 0).val; omega
    | ⟨1, _⟩ => show win0_3.index t (1 : Fin 3) * 1024 + 1 * r.val = (grid0.coords t 1).val * 1024 + r.val; omega
    | ⟨2, _⟩ => show win0_3.index t (2 : Fin 3) * 2048 + 1 * k.val = k.val; omega
  rw [hi, V_main_arg3]

/-! ## The scratches after every point -/

/-- The projected features, forward and backward, as the first point computes them from its blocks. -/
def HF (c : Dev nD) : Vec Ideal S8x2048x64 .f32 := projAll (iblk m c 0 first) (iblk m c 4 first) (iblk m c 5 first)
def HB (c : Dev nD) : Vec Ideal S8x2048x64 .f32 := projAll (iblk m c 0 first) (iblk m c 6 first) (iblk m c 7 first)

/-- They are the specification's projections of the argument arrays. -/
theorem HF_apply (c : Dev nD) (b : Fin 8) (k : Fin 2048) (d : Fin 64) :
    HF m c (ix3 b k d) = proj (A0 m c) (A4 m c) (A5 m c) b k d := by
  show projAt _ _ _ b k d = _
  unfold projAt proj
  rw [iblk5_apply]
  refine congrArg (· + (A5 m c) (ix1 d)) (Finset.sum_congr rfl fun e _ => ?_)
  rw [iblk0_apply, iblk4_apply]

theorem HB_apply (c : Dev nD) (b : Fin 8) (k : Fin 2048) (d : Fin 64) :
    HB m c (ix3 b k d) = proj (A0 m c) (A6 m c) (A7 m c) b k d := by
  show projAt _ _ _ b k d = _
  unfold projAt proj
  rw [iblk7_apply]
  refine congrArg (· + (A7 m c) (ix1 d)) (Finset.sum_congr rfl fun e _ => ?_)
  rw [iblk0_apply, iblk6_apply]

/-- After every point both scratches hold them: the first point stores them, no later point stores into a scratch. -/
theorem carried (c : Dev nD) : ∀ (n : ℕ) (h : n < cfg0.N), (outsAt0 m c n h).2.1 = HF m c ∧ (outsAt0 m c n h).2.2 = HB m c
  | 0, h => by
    rw [outsAt0_A m c ⟨0, h⟩ rfl]
    dsimp only
    exact ⟨sout_A_0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) scM0_0 (Memref.isWhole_whole _) scM0_1 (Memref.isWhole_whole _) ((hcond0_0 (⟨0, h⟩ : Fin cfg0.N)).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)),
      sout_A_1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) scM0_0 (Memref.isWhole_whole _) scM0_1 (Memref.isWhole_whole _) ((hcond0_0 (⟨0, h⟩ : Fin cfg0.N)).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N))⟩
  | n + 1, h => by
    have ih := carried c n (Nat.lt_of_succ_lt h)
    have hB : ¬(⟨n + 1, h⟩ : Fin cfg0.N).val % 16 = 0 := by have := hN; dsimp only; omega
    rw [outsAt0_B m c ⟨n + 1, h⟩ hB]
    dsimp only
    exact ⟨ih.1, ih.2⟩

/-- The output block after point `t`: from its own input blocks and its batch's slabs of the projected features. -/
theorem out_at (c : Dev nD) (t : Fin cfg0.N) :
    (outsAt0 m c t.val t.isLt).1
      = outBlock (iblk m c 1 t) (iblk m c 2 t) (iblk m c 3 t) (fun k d' => HF m c (ix3 (bOf t) k d')) (fun k d' => HB m c (ix3 (bOf t) k d')) := by
  by_cases h0 : t.val % 16 = 0
  · have ht : t = first := Fin.ext (by have := t.isLt; have := hN; show t.val = 0; omega)
    subst ht
    rw [outsAt0_A m c first h0]
    dsimp only
    exact out_A c (grid0.coords first) (ms0_0 first) (hs0_0 first) (ms0_1 first) (hs0_1 first) (ms0_2 first) (hs0_2 first) (ms0_3 first) (hs0_3 first) (ms0_4 first) (hs0_4 first) (ms0_5 first) (hs0_5 first) (ms0_6 first) (hs0_6 first) (ms0_7 first) (hs0_7 first) (ms0_8 first) (hs0_8 first) scM0_0 (Memref.isWhole_whole _) scM0_1 (Memref.isWhole_whole _) ((hcond0_0 first).mpr h0) (iblk m c 0 first) (iblk m c 1 first) (iblk m c 2 first) (iblk m c 3 first) (iblk m c 4 first) (iblk m c 5 first) (iblk m c 6 first) (iblk m c 7 first)
  · have hc := carried m c (t.val - 1) (Nat.lt_of_le_of_lt (Nat.sub_le _ _) t.isLt)
    rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) _ _).trans ?_
    rw [hc.1, hc.2]
    rfl

/-! ## What each point writes back -/

/-- Row r of point `t`'s block holds the codes of node `rowOf t r` of batch `bOf t`. -/
theorem attn_fwd (c : Dev nD) (t : Fin cfg0.N) (r : Fin 1024) (d : Fin 64) :
    attnAt (iblk m c 1 t) (iblk m c 2 t) (fun k d' => HF m c (ix3 (bOf t) k d')) r d
      = code (A0 m c) (A1 m c) (A2 m c) (A4 m c) (A5 m c) (bOf t) (rowOf t r) d := by
  unfold attnAt code agg
  rw [iblk1_apply]
  refine congrArg ((A1 m c) (ix3 (bOf t) (rowOf t r) d) * softmaxRow · d) (funext fun d' => ?_)
  refine Finset.sum_congr rfl fun k _ => ?_
  rw [iblk2_apply]
  exact congrArg (A2 m c (ix3 (bOf t) (rowOf t r) k) * ·) (HF_apply m c (bOf t) k d')

theorem attn_bwd (c : Dev nD) (t : Fin cfg0.N) (r : Fin 1024) (d : Fin 64) :
    attnAt (iblk m c 1 t) (iblk m c 3 t) (fun k d' => HB m c (ix3 (bOf t) k d')) r d
      = code (A0 m c) (A1 m c) (A3 m c) (A6 m c) (A7 m c) (bOf t) (rowOf t r) d := by
  unfold attnAt code agg
  rw [iblk1_apply]
  refine congrArg ((A1 m c) (ix3 (bOf t) (rowOf t r) d) * softmaxRow · d) (funext fun d' => ?_)
  refine Finset.sum_congr rfl fun k _ => ?_
  rw [iblk3_apply]
  exact congrArg (A3 m c (ix3 (bOf t) (rowOf t r) k) * ·) (HB_apply m c (bOf t) k d')

/-- What point `t` writes back is block `t` of the specification. -/
theorem flushed_eq (c : Dev nD) (t : Fin cfg0.N) :
    (dats m 0 c).flushed 8 t = ((cfg0.win 8).blk t).view.read (Elt Ideal) (resultArr m c) := by
  rw [Cert.KernelIdeal.Value.flushed8 m c t, out_at m c t]
  obtain ⟨-, -, -, -, -, -, -, -, -, e0, e1, e2⟩ := idx_facts t
  funext j
  obtain ⟨u, r, q, rfl⟩ : ∃ (u : Fin 1) (r : Fin 1024) (q : Fin 128), j = ix3 u r q := ⟨j 0, j 1, j 2, eq_ix3 j⟩
  rw [View.read_apply]
  show outBlock _ _ _ _ _ (ix3 u r q) = resultArr m c (((cfg0.win 8).blk t).view.emb (ix3 u r q))
  have hi : ((cfg0.win 8).blk t).view.emb (ix3 u r q) = ix3 (bOf t) (rowOf t r) q := by
    funext a; apply Fin.ext
    have hu : u.val = 0 := by omega
    match a with
    | ⟨0, _⟩ => show win0_8.index t (0 : Fin 3) * 1 + 1 * u.val = (grid0.coords t 0).val; omega
    | ⟨1, _⟩ => show win0_8.index t (1 : Fin 3) * 1024 + 1 * r.val = (grid0.coords t 1).val * 1024 + r.val; omega
    | ⟨2, _⟩ => show win0_8.index t (2 : Fin 3) * 128 + 1 * q.val = q.val; omega
  rw [hi]
  unfold resultArr
  rcases last_axis_cases q with ⟨d, rfl⟩ | ⟨d, rfl⟩
  · rw [outBlock_fwd, result_fwd]; exact attn_fwd m c t r d
  · rw [outBlock_bwd, result_bwd]; exact attn_bwd m c t r d

/-! ## The blocks cover the array -/

theorem mem_blk (t : Fin cfg0.N) (i : S8x2048x128.Idx) :
    i ∈ ((cfg0.win 8).blk t).view.set ↔ ∀ a : Fin 3, win0_8.index t a * S1x1024x128.size a ≤ (i a).val ∧ (i a).val < win0_8.index t a * S1x1024x128.size a + S1x1024x128.size a := by
  show i ∈ ((View.whole main_v0).slice (win0_8.rect t)).set ↔ _
  rw [View.set_slice_whole, Rect.mem_set_unit]
  exact Iff.rfl

theorem cover (i : S8x2048x128.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win0_8.index t (0 : Fin 3) = (i 0).val := congrFun ht 0
  have q1 : win0_8.index t (1 : Fin 3) = (i 1).val / 1024 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 128 ≤ (i 2).val ∧ (i 2).val < win0_8.index t (2 : Fin 3) * 128 + 128; omega

/-- So the result array after the run is the specification. -/
theorem final (c : Dev nD) : (dats m 0 c).arrAt 8 cfg0.N = resultArr m c :=
  (dats m 0 c).arrAt_eq_of_cover 8 (resultArr m c) (fun t _ => flushed_eq m c t) cover

/-! ## The run, read -/

theorem run : θ_run defs (onTc (τ := τ) (main (F := Ideal))) ⟨m, fun _ => 0, ρ⟩ fun r => ∀ c : Dev nD,
      r.2.mem ((c : Thread nD τ).loc main_v0) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.BlockValue

end
-- ==== Proof.RefRun.lean ====
/-
  The reference program's run, read back: every weakly fair execution of its @main terminates with the result buffer
  holding one function of the eight argument arrays, the arguments unchanged.

  That function is named in stages, each the program's own operations on whole arrays:
    projAgg x adj w b   the adjacency applied to the projected features,  adj · (x · w + b)   (a batched matrix product
                        of a matrix product plus a bias broadcast over batches and nodes);
    rowMaxCol a         each row's maximum over the last axis, from -∞, broadcast back over that axis;
    expShift a          exp (a - rowMaxCol a);
    softmaxLast a       expShift a divided by its sum over the last axis (broadcast back): the softmax over the last axis;
    resultTerm          dyn · softmaxLast (projAgg …) for the forward operands and for the backward ones, joined on the last axis.
  The 41 operations of @main are listed in program order; the run is the library's sequential run of that list, and each
  buffer's final contents are read off it one operation at a time.
-/
import proofs.«130610_g44976897524696_cont_8to1c4_646_24_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The adjacency applied to the projected node features: `adj · (x · w + b)`, batch by batch. -/
def projAgg (x : (⟨S8x2048x64, .f32⟩ : BufTy).Contents (Elt F)) (adj : (⟨S8x2048x2048, .f32⟩ : BufTy).Contents (Elt F)) (w : (⟨S64x64, .f32⟩ : BufTy).Contents (Elt F)) (b : (⟨S64, .f32⟩ : BufTy).Contents (Elt F)) : (⟨S8x2048x64, .f32⟩ : BufTy).Contents (Elt F) :=
  Host.dotGeneral dot_S8x2048x2048_S8x2048x64_S8x2048x64_2_1_1_2_0_0 none adj
    (addf (Host.dotGeneral dot_S8x2048x64_S64x64_S8x2048x64_2_0_01_1_n_n none x w)
      (broadcastInDim S8x2048x64 ![0, 1, 2] bcast_S1x1x64_S8x2048x64_0_1_2 (broadcastInDim S1x1x64 ![2] bcast_S64_S1x1x64_2 b)))

/-- Each row's maximum over the last axis, taken from -∞ (and once more against -∞, which changes nothing), broadcast back. -/
def rowMaxCol (a : (⟨S8x2048x64, .f32⟩ : BufTy).Contents (Elt F)) : (⟨S8x2048x64, .f32⟩ : BufTy).Contents (Elt F) :=
  broadcastInDim S8x2048x64 ![0, 1, 2] bcast_S8x2048x1_S8x2048x64_0_1_2
    (broadcastInDim S8x2048x1 ![0, 1] bcast_S8x2048_S8x2048x1_0_1
      (maximumf (broadcastInDim S8x2048 ![] bcast_S_S8x2048 (constant S_ .f32 0xFF800000#32))
        (Host.reduce FloatOps.maximumf a (constant S_ .f32 0xFF800000#32) reducesTo_S8x2048x64_S8x2048_d2 h_S_)))

/-- The exponential of each entry less its row's maximum. -/
def expShift (a : (⟨S8x2048x64, .f32⟩ : BufTy).Contents (Elt F)) : (⟨S8x2048x64, .f32⟩ : BufTy).Contents (Elt F) := Host.exp (subf a (rowMaxCol a))

/-- The softmax over the last axis: the shifted exponentials over their row sums. -/
def softmaxLast (a : (⟨S8x2048x64, .f32⟩ : BufTy).Contents (Elt F)) : (⟨S8x2048x64, .f32⟩ : BufTy).Contents (Elt F) :=
  Host.divf (expShift a)
    (broadcastInDim S8x2048x64 ![0, 1, 2] bcast_S8x2048x1_S8x2048x64_0_1_2
      (broadcastInDim S8x2048x1 ![0, 1] bcast_S8x2048_S8x2048x1_0_1
        (Host.reduceAdd (expShift a) (constant S_ .f32 0x00000000#32) reducesTo_S8x2048x64_S8x2048_d2 h_S_)))

/-- The reference's result as one function of its eight arguments. -/
def resultTerm (x0 x1 : (⟨S8x2048x64, .f32⟩ : BufTy).Contents (Elt F)) (x2 x3 : (⟨S8x2048x2048, .f32⟩ : BufTy).Contents (Elt F)) (x4 : (⟨S64x64, .f32⟩ : BufTy).Contents (Elt F)) (x5 : (⟨S64, .f32⟩ : BufTy).Contents (Elt F))
    (x6 : (⟨S64x64, .f32⟩ : BufTy).Contents (Elt F)) (x7 : (⟨S64, .f32⟩ : BufTy).Contents (Elt F)) : (⟨S8x2048x128, .f32⟩ : BufTy).Contents (Elt F) :=
  concatenate S8x2048x128 2 [⟨S8x2048x64, mulf x1 (softmaxLast (projAgg x0 x2 x4 x5))⟩, ⟨S8x2048x64, mulf x1 (softmaxLast (projAgg x0 x3 x6 x7))⟩]
    concatenates_S8x2048x64_S8x2048x64_S8x2048x128_d2

/-- @main's 41 operations, in program order. -/
abbrev ops : List (HloOp τ sig (Elt F)) :=
  [ binary main_arg0 main_arg4 main_v0 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    unary main_arg5 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v0 main_v2 main_v3 (addf : (⟨S8x2048x64, .f32⟩ : BufTy).Contents (Elt F) → (⟨S8x2048x64, .f32⟩ : BufTy).Contents (Elt F) → (⟨S8x2048x64, .f32⟩ : BufTy).Contents (Elt F)),
    binary main_arg2 main_v3 main_v4 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    binary main_arg0 main_arg6 main_v5 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    unary main_arg7 main_v6 (broadcastInDim S1x1x64 ![2] bcast_S64_S1x1x64_2 : (⟨S64, .f32⟩ : BufTy).Contents (Elt F) → (⟨S1x1x64, .f32⟩ : BufTy).Contents (Elt F)),
    unary main_v6 main_v7 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v5 main_v7 main_v8 (addf : (⟨S8x2048x64, .f32⟩ : BufTy).Contents (Elt F) → (⟨S8x2048x64, .f32⟩ : BufTy).Contents (Elt F) → (⟨S8x2048x64, .f32⟩ : BufTy).Contents (Elt F)),
    binary main_arg3 main_v8 main_v9 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    nullary main_cst (constant S_ .f32 0xFF800000#32),
    binary main_v4 main_cst main_v10 ((fun x v => Host.reduce FloatOps.maximumf x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    nullary main_cst_0 (constant S_ .f32 0xFF800000#32),
    unary main_cst_0 main_v11 (broadcastInDim S8x2048 ![] bcast_S_S8x2048 : (⟨S_, .f32⟩ : BufTy).Contents (Elt F) → (⟨S8x2048, .f32⟩ : BufTy).Contents (Elt F)),
    binary main_v11 main_v10 main_v12 (maximumf : (⟨S8x2048, .f32⟩ : BufTy).Contents (Elt F) → (⟨S8x2048, .f32⟩ : BufTy).Contents (Elt F) → (⟨S8x2048, .f32⟩ : BufTy).Contents (Elt F)),
    unary main_v12 main_v13 (broadcastInDim S8x2048x1 ![0, 1] bcast_S8x2048_S8x2048x1_0_1 : (⟨S8x2048, .f32⟩ : BufTy).Contents (Elt F) → (⟨S8x2048x1, .f32⟩ : BufTy).Contents (Elt F)),
    unary main_v13 main_v14 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v4 main_v14 main_v15 (subf : (⟨S8x2048x64, .f32⟩ : BufTy).Contents (Elt F) → (⟨S8x2048x64, .f32⟩ : BufTy).Contents (Elt F) → (⟨S8x2048x64, .f32⟩ : BufTy).Contents (Elt F)),
    unary main_v15 main_v16 (Host.exp : (⟨S8x2048x64, .f32⟩ : BufTy).Contents (Elt F) → (⟨S8x2048x64, .f32⟩ : BufTy).Contents (Elt F)),
    nullary main_cst_1 (constant S_ .f32 0x00000000#32),
    binary main_v16 main_cst_1 main_v17 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v17 main_v18 (broadcastInDim S8x2048x1 ![0, 1] bcast_S8x2048_S8x2048x1_0_1 : (⟨S8x2048, .f32⟩ : BufTy).Contents (Elt F) → (⟨S8x2048x1, .f32⟩ : BufTy).Contents (Elt F)),
    unary main_v18 main_v19 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v16 main_v19 main_v20 (Host.divf : (⟨S8x2048x64, .f32⟩ : BufTy).Contents (Elt F) → (⟨S8x2048x64, .f32⟩ : BufTy).Contents (Elt F) → (⟨S8x2048x64, .f32⟩ : BufTy).Contents (Elt F)),
    nullary main_cst_2 (constant S_ .f32 0xFF800000#32),
    binary main_v9 main_cst_2 main_v21 ((fun x v => Host.reduce FloatOps.maximumf x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    nullary main_cst_3 (constant S_ .f32 0xFF800000#32),
    unary main_cst_3 main_v22 (broadcastInDim S8x2048 ![] bcast_S_S8x2048 : (⟨S_, .f32⟩ : BufTy).Contents (Elt F) → (⟨S8x2048, .f32⟩ : BufTy).Contents (Elt F)),
    binary main_v22 main_v21 main_v23 (maximumf : (⟨S8x2048, .f32⟩ : BufTy).Contents (Elt F) → (⟨S8x2048, .f32⟩ : BufTy).Contents (Elt F) → (⟨S8x2048, .f32⟩ : BufTy).Contents (Elt F)),
    unary main_v23 main_v24 (broadcastInDim S8x2048x1 ![0, 1] bcast_S8x2048_S8x2048x1_0_1 : (⟨S8x2048, .f32⟩ : BufTy).Contents (Elt F) → (⟨S8x2048x1, .f32⟩ : BufTy).Contents (Elt F)),
    unary main_v24 main_v25 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v9 main_v25 main_v26 (subf : (⟨S8x2048x64, .f32⟩ : BufTy).Contents (Elt F) → (⟨S8x2048x64, .f32⟩ : BufTy).Contents (Elt F) → (⟨S8x2048x64, .f32⟩ : BufTy).Contents (Elt F)),
    unary main_v26 main_v27 (Host.exp : (⟨S8x2048x64, .f32⟩ : BufTy).Contents (Elt F) → (⟨S8x2048x64, .f32⟩ : BufTy).Contents (Elt F)),
    nullary main_cst_4 (constant S_ .f32 0x00000000#32),
    binary main_v27 main_cst_4 main_v28 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v28 main_v29 (broadcastInDim S8x2048x1 ![0, 1] bcast_S8x2048_S8x2048x1_0_1 : (⟨S8x2048, .f32⟩ : BufTy).Contents (Elt F) → (⟨S8x2048x1, .f32⟩ : BufTy).Contents (Elt F)),
    unary main_v29 main_v30 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v27 main_v30 main_v31 (Host.divf : (⟨S8x2048x64, .f32⟩ : BufTy).Contents (Elt F) → (⟨S8x2048x64, .f32⟩ : BufTy).Contents (Elt F) → (⟨S8x2048x64, .f32⟩ : BufTy).Contents (Elt F)),
    binary main_arg1 main_v20 main_v32 (mulf : (⟨S8x2048x64, .f32⟩ : BufTy).Contents (Elt F) → (⟨S8x2048x64, .f32⟩ : BufTy).Contents (Elt F) → (⟨S8x2048x64, .f32⟩ : BufTy).Contents (Elt F)),
    binary main_arg1 main_v31 main_v33 (mulf : (⟨S8x2048x64, .f32⟩ : BufTy).Contents (Elt F) → (⟨S8x2048x64, .f32⟩ : BufTy).Contents (Elt F) → (⟨S8x2048x64, .f32⟩ : BufTy).Contents (Elt F)),
    binary main_v32 main_v33 main_v34 ((fun a b => concatenate S8x2048x128 2 [⟨S8x2048x64, a⟩, ⟨S8x2048x64, b⟩] concatenates_S8x2048x64_S8x2048x64_S8x2048x128_d2) : (⟨S8x2048x64, .f32⟩ : BufTy).Contents (Elt F) → (⟨S8x2048x64, .f32⟩ : BufTy).Contents (Elt F) → (⟨S8x2048x128, .f32⟩ : BufTy).Contents (Elt F)) ]

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub ..⟩

set_option maxRecDepth 65536 in
set_option maxHeartbeats 4000000 in
/-- On every device, from any memory with zero counters: every weakly fair execution of @main terminates with the result
    buffer at `resultTerm` of the arguments' contents at launch, and the arguments unchanged. The result is a join of two
    arrays: each joined array's contents are read off the operation list separately. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = resultTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v34).trans (by
        unfold resultTerm softmaxLast expShift rowMaxCol projAgg
        after_results_simp
        refine congrArg₂ (fun a b => concatenate S8x2048x128 2 [⟨S8x2048x64, a⟩, ⟨S8x2048x64, b⟩] concatenates_S8x2048x64_S8x2048x64_S8x2048x128_d2) ?_ ?_
          <;> after_results_simp),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_seq scopedRefs_eq scopedSems_eq defs main (fun _ => ops) main_eq (fun _ => ops_sub) m ρ)

end Cert.ReferenceIdeal.RefValue

end
-- ==== Proof.RefValue.lean ====
/-
  The reference's result, read at an index, is the specification.

  Stage by stage, at batch `b`, node `n`, feature `d`:
  * the projection `x · w + bias` is Σ_e x(b, n, e) · w(e, d) + bias(d): a matrix product with one contracted axis, and a
    bias broadcast through a [1, 1, 64] array over batches and nodes;
  * the batched product with the adjacency is Σ_k adj(b, n, k) · (…)(b, k, d): batch axis 0 on both sides, one contracted axis;
  * the row maximum is the fold of `max` from -∞ over the 64 features of row (b, n); the further `max` against -∞ is the identity;
  * the sum of the shifted exponentials starts from 0, which drops;
  * the join on the last axis reads its first operand at entries 0..63 and its second, shifted by 64, at entries 64..127.
-/
import proofs.«130610_g44976897524696_cont_8to1c4_646_24_alg».proof.Proof.RefRun
import proofs.«130610_g44976897524696_cont_8to1c4_646_24_alg».proof.Proof.AttnSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.AttnSpec

/-! ## The two products at an index -/

/-- The coordinates of the products' operand indices that are not contracted are the output's own. -/
theorem xw_lhs_batch (j : S8x2048x64.Idx) (q : dot_S8x2048x64_S64x64_S8x2048x64_2_0_01_1_n_n.contr.Idx) : (dot_S8x2048x64_S64x64_S8x2048x64_2_0_01_1_n_n.lhsIdx j q 0).val = (j 0).val := by
  unfold DotDims.lhsIdx
  rw [dif_neg (show ¬(0 : Fin S8x2048x64.rank) ∈ dot_S8x2048x64_S64x64_S8x2048x64_2_0_01_1_n_n.lhsBatch by decide), dif_pos (show (0 : Fin S8x2048x64.rank) ∈ dot_S8x2048x64_S64x64_S8x2048x64_2_0_01_1_n_n.lhsNonContracting by decide)]
  rfl
theorem xw_lhs_node (j : S8x2048x64.Idx) (q : dot_S8x2048x64_S64x64_S8x2048x64_2_0_01_1_n_n.contr.Idx) : (dot_S8x2048x64_S64x64_S8x2048x64_2_0_01_1_n_n.lhsIdx j q 1).val = (j 1).val := by
  unfold DotDims.lhsIdx
  rw [dif_neg (show ¬(1 : Fin S8x2048x64.rank) ∈ dot_S8x2048x64_S64x64_S8x2048x64_2_0_01_1_n_n.lhsBatch by decide), dif_pos (show (1 : Fin S8x2048x64.rank) ∈ dot_S8x2048x64_S64x64_S8x2048x64_2_0_01_1_n_n.lhsNonContracting by decide)]
  rfl
theorem xw_rhs_feat (j : S8x2048x64.Idx) (q : dot_S8x2048x64_S64x64_S8x2048x64_2_0_01_1_n_n.contr.Idx) : (dot_S8x2048x64_S64x64_S8x2048x64_2_0_01_1_n_n.rhsIdx j q 1).val = (j 2).val := by
  unfold DotDims.rhsIdx
  rw [dif_neg (show ¬(1 : Fin S64x64.rank) ∈ dot_S8x2048x64_S64x64_S8x2048x64_2_0_01_1_n_n.rhsBatch by decide), dif_pos (show (1 : Fin S64x64.rank) ∈ dot_S8x2048x64_S64x64_S8x2048x64_2_0_01_1_n_n.rhsNonContracting by decide)]
  rfl
theorem adj_lhs_batch (j : S8x2048x64.Idx) (q : dot_S8x2048x2048_S8x2048x64_S8x2048x64_2_1_1_2_0_0.contr.Idx) : (dot_S8x2048x2048_S8x2048x64_S8x2048x64_2_1_1_2_0_0.lhsIdx j q 0).val = (j 0).val := by
  unfold DotDims.lhsIdx
  rw [dif_pos (show (0 : Fin S8x2048x2048.rank) ∈ dot_S8x2048x2048_S8x2048x64_S8x2048x64_2_1_1_2_0_0.lhsBatch by decide)]
  rfl
theorem adj_lhs_node (j : S8x2048x64.Idx) (q : dot_S8x2048x2048_S8x2048x64_S8x2048x64_2_1_1_2_0_0.contr.Idx) : (dot_S8x2048x2048_S8x2048x64_S8x2048x64_2_1_1_2_0_0.lhsIdx j q 1).val = (j 1).val := by
  unfold DotDims.lhsIdx
  rw [dif_neg (show ¬(1 : Fin S8x2048x2048.rank) ∈ dot_S8x2048x2048_S8x2048x64_S8x2048x64_2_1_1_2_0_0.lhsBatch by decide), dif_pos (show (1 : Fin S8x2048x2048.rank) ∈ dot_S8x2048x2048_S8x2048x64_S8x2048x64_2_1_1_2_0_0.lhsNonContracting by decide)]
  rfl
theorem adj_rhs_batch (j : S8x2048x64.Idx) (q : dot_S8x2048x2048_S8x2048x64_S8x2048x64_2_1_1_2_0_0.contr.Idx) : (dot_S8x2048x2048_S8x2048x64_S8x2048x64_2_1_1_2_0_0.rhsIdx j q 0).val = (j 0).val := by
  unfold DotDims.rhsIdx
  rw [dif_pos (show (0 : Fin S8x2048x64.rank) ∈ dot_S8x2048x2048_S8x2048x64_S8x2048x64_2_1_1_2_0_0.rhsBatch by decide)]
  rfl
theorem adj_rhs_feat (j : S8x2048x64.Idx) (q : dot_S8x2048x2048_S8x2048x64_S8x2048x64_2_1_1_2_0_0.contr.Idx) : (dot_S8x2048x2048_S8x2048x64_S8x2048x64_2_1_1_2_0_0.rhsIdx j q 2).val = (j 2).val := by
  unfold DotDims.rhsIdx
  rw [dif_neg (show ¬(2 : Fin S8x2048x64.rank) ∈ dot_S8x2048x2048_S8x2048x64_S8x2048x64_2_1_1_2_0_0.rhsBatch by decide), dif_pos (show (2 : Fin S8x2048x64.rank) ∈ dot_S8x2048x2048_S8x2048x64_S8x2048x64_2_1_1_2_0_0.rhsNonContracting by decide)]
  rfl

theorem dot_xw_apply (x : FVec Ideal S8x2048x64 .f32) (w : FVec Ideal S64x64 .f32) (b : Fin 8) (n : Fin 2048) (d : Fin 64) :
    Host.dotGeneral dot_S8x2048x64_S64x64_S8x2048x64_2_0_01_1_n_n none x w (ix3 b n d) = ∑ e : Fin 64, x (ix3 b n e) * w (ix2 e d) := by
  simp only [Host.dotGeneral]
  rw [Ideal.dotGeneral_apply, ← Equiv.sum_comp (contrEquiv1 dot_S8x2048x64_S64x64_S8x2048x64_2_0_01_1_n_n 64 rfl rfl).symm]
  refine Finset.sum_congr rfl fun k _ => ?_
  have hk := contrEquiv1_symm_val dot_S8x2048x64_S64x64_S8x2048x64_2_0_01_1_n_n 64 rfl rfl k
  have el : dot_S8x2048x64_S64x64_S8x2048x64_2_0_01_1_n_n.lhsIdx (ix3 b n d) ((contrEquiv1 dot_S8x2048x64_S64x64_S8x2048x64_2_0_01_1_n_n 64 rfl rfl).symm k) = ix3 b n k := funext fun a => Fin.ext (by
    match a with
    | ⟨0, _⟩ => exact xw_lhs_batch _ _
    | ⟨1, _⟩ => exact xw_lhs_node _ _
    | ⟨2, _⟩ => exact (dot_S8x2048x64_S64x64_S8x2048x64_2_0_01_1_n_n.lhsIdx_val_of_single rfl _ _).trans hk)
  have er : dot_S8x2048x64_S64x64_S8x2048x64_2_0_01_1_n_n.rhsIdx (ix3 b n d) ((contrEquiv1 dot_S8x2048x64_S64x64_S8x2048x64_2_0_01_1_n_n 64 rfl rfl).symm k) = ix2 k d := funext fun a => Fin.ext (by
    match a with
    | ⟨0, _⟩ => exact (dot_S8x2048x64_S64x64_S8x2048x64_2_0_01_1_n_n.rhsIdx_val_of_single rfl _ _).trans hk
    | ⟨1, _⟩ => exact xw_rhs_feat _ _)
  rw [el, er]

theorem dot_adj_apply (adj : FVec Ideal S8x2048x2048 .f32) (h : FVec Ideal S8x2048x64 .f32) (b : Fin 8) (n : Fin 2048) (d : Fin 64) :
    Host.dotGeneral dot_S8x2048x2048_S8x2048x64_S8x2048x64_2_1_1_2_0_0 none adj h (ix3 b n d) = ∑ k : Fin 2048, adj (ix3 b n k) * h (ix3 b k d) := by
  simp only [Host.dotGeneral]
  rw [Ideal.dotGeneral_apply, ← Equiv.sum_comp (contrEquiv1 dot_S8x2048x2048_S8x2048x64_S8x2048x64_2_1_1_2_0_0 2048 rfl rfl).symm]
  refine Finset.sum_congr rfl fun k _ => ?_
  have hk := contrEquiv1_symm_val dot_S8x2048x2048_S8x2048x64_S8x2048x64_2_1_1_2_0_0 2048 rfl rfl k
  have el : dot_S8x2048x2048_S8x2048x64_S8x2048x64_2_1_1_2_0_0.lhsIdx (ix3 b n d) ((contrEquiv1 dot_S8x2048x2048_S8x2048x64_S8x2048x64_2_1_1_2_0_0 2048 rfl rfl).symm k) = ix3 b n k := funext fun a => Fin.ext (by
    match a with
    | ⟨0, _⟩ => exact adj_lhs_batch _ _
    | ⟨1, _⟩ => exact adj_lhs_node _ _
    | ⟨2, _⟩ => exact (dot_S8x2048x2048_S8x2048x64_S8x2048x64_2_1_1_2_0_0.lhsIdx_val_of_single rfl _ _).trans hk)
  have er : dot_S8x2048x2048_S8x2048x64_S8x2048x64_2_1_1_2_0_0.rhsIdx (ix3 b n d) ((contrEquiv1 dot_S8x2048x2048_S8x2048x64_S8x2048x64_2_1_1_2_0_0 2048 rfl rfl).symm k) = ix3 b k d := funext fun a => Fin.ext (by
    match a with
    | ⟨0, _⟩ => exact adj_rhs_batch _ _
    | ⟨1, _⟩ => exact (dot_S8x2048x2048_S8x2048x64_S8x2048x64_2_1_1_2_0_0.rhsIdx_val_of_single rfl _ _).trans hk
    | ⟨2, _⟩ => exact adj_rhs_feat _ _)
  rw [el, er]

/-! ## The broadcasts at an index -/

/-- The bias, broadcast through a [1, 1, 64] array to every batch and node, reads its entry `d`. -/
theorem bias_apply (bias : FVec Ideal S64 .f32) (b : Fin 8) (n : Fin 2048) (d : Fin 64) :
    broadcastInDim S8x2048x64 ![0, 1, 2] bcast_S1x1x64_S8x2048x64_0_1_2 (broadcastInDim S1x1x64 ![2] bcast_S64_S1x1x64_2 bias) (ix3 b n d) = bias (ix1 d) := by
  refine (broadcastInDim_apply _ bcast_S1x1x64_S8x2048x64_0_1_2 _ (ix3 b n d) (ix3 (0 : Fin 1) (0 : Fin 1) d) (fun a => ?_)).trans ?_
  · match a with
    | ⟨0, _⟩ => show 0 = if (1 : Nat) = 1 then 0 else b.val; rw [if_pos rfl]
    | ⟨1, _⟩ => show 0 = if (1 : Nat) = 1 then 0 else n.val; rw [if_pos rfl]
    | ⟨2, _⟩ => show d.val = if (64 : Nat) = 1 then 0 else d.val; rw [if_neg (by decide)]
  · exact broadcastInDim_apply _ bcast_S64_S1x1x64_2 bias _ (ix1 d) (fun a => match a with
      | ⟨0, _⟩ => by show d.val = if (64 : Nat) = 1 then 0 else d.val; rw [if_neg (by decide)])

/-- A per-row quantity kept as [8, 2048], made a column [8, 2048, 1] and broadcast over the 64 features, reads row (b, n). -/
theorem column_apply (v : FVec Ideal S8x2048 .f32) (b : Fin 8) (n : Fin 2048) (d : Fin 64) :
    broadcastInDim S8x2048x64 ![0, 1, 2] bcast_S8x2048x1_S8x2048x64_0_1_2 (broadcastInDim S8x2048x1 ![0, 1] bcast_S8x2048_S8x2048x1_0_1 v) (ix3 b n d) = v (ix2 b n) := by
  refine (broadcastInDim_apply _ bcast_S8x2048x1_S8x2048x64_0_1_2 _ (ix3 b n d) (ix3 b n (0 : Fin 1)) (fun a => ?_)).trans ?_
  · match a with
    | ⟨0, _⟩ => show b.val = if (8 : Nat) = 1 then 0 else b.val; rw [if_neg (by decide)]
    | ⟨1, _⟩ => show n.val = if (2048 : Nat) = 1 then 0 else n.val; rw [if_neg (by decide)]
    | ⟨2, _⟩ => show 0 = if (1 : Nat) = 1 then 0 else d.val; rw [if_pos rfl]
  · exact broadcastInDim_apply _ bcast_S8x2048_S8x2048x1_0_1 v _ (ix2 b n) (fun a => match a with
      | ⟨0, _⟩ => by show b.val = if (8 : Nat) = 1 then 0 else b.val; rw [if_neg (by decide)]
      | ⟨1, _⟩ => by show n.val = if (2048 : Nat) = 1 then 0 else n.val; rw [if_neg (by decide)])

/-! ## The stages at an index -/

theorem projAgg_apply (x : FVec Ideal S8x2048x64 .f32) (adj : FVec Ideal S8x2048x2048 .f32) (w : FVec Ideal S64x64 .f32) (bias : FVec Ideal S64 .f32)
    (b : Fin 8) (n : Fin 2048) (d : Fin 64) :
    projAgg (F := Ideal) x adj w bias (ix3 b n d) = agg adj (proj x w bias) b n d := by
  unfold projAgg agg proj
  rw [dot_adj_apply]
  refine Finset.sum_congr rfl fun k _ => ?_
  refine congrArg (adj (ix3 b n k) * ·) ?_
  refine (addf_apply _ _ _).trans ?_
  rw [dot_xw_apply, bias_apply]

/-- Row (b, n)'s index with the feature coordinate put back is (b, n, k). -/
theorem lift_row (h : S8x2048x64.Reduces [2] S8x2048) (b : Fin 8) (n : Fin 2048) (k : Fin (S8x2048x64.size 2)) :
    h.lift (ix2 b n) k = ix3 b n (⟨k.val, k.isLt⟩ : Fin 64) := by
  funext c; apply Fin.ext
  match c with
  | ⟨0, _⟩ => rfl
  | ⟨1, _⟩ => rfl
  | ⟨2, _⟩ => rfl

theorem reduces_last : S8x2048x64.Reduces [2] S8x2048 := by decide

theorem rowMaxCol_apply (a : FVec Ideal S8x2048x64 .f32) (b : Fin 8) (n : Fin 2048) (d : Fin 64) :
    rowMaxCol (F := Ideal) a (ix3 b n d) = rowMax (fun d' => a (ix3 b n d')) := by
  unfold rowMaxCol
  rw [column_apply]
  refine (maximumf_apply _ _ _).trans ?_
  have e1 : broadcastInDim S8x2048 ![] bcast_S_S8x2048 (constant (F := Ideal) S_ .f32 0xFF800000#32) (ix2 b n) = negInf :=
    (broadcastInDim_apply _ bcast_S_S8x2048 _ (ix2 b n) ix0 (fun a => a.elim0)).trans rfl
  have e2 : Host.reduce FloatOps.maximumf a (constant (F := Ideal) S_ .f32 0xFF800000#32) reducesTo_S8x2048x64_S8x2048_d2 h_S_ (ix2 b n)
      = rowMax (fun d' => a (ix3 b n d')) := by
    refine (Host.reduce_eq_fold_single FloatOps.maximumf a _ reducesTo_S8x2048x64_S8x2048_d2 reduces_last h_S_ (ix2 b n)).trans ?_
    have hf : (a ∘ reduces_last.lift (ix2 b n)) = fun k : Fin 64 => a (ix3 b n k) :=
      funext fun k => congrArg a (lift_row reduces_last b n k)
    rw [hf]
    rfl
  rw [e1, e2, max_negInf]

theorem expShift_apply (a : FVec Ideal S8x2048x64 .f32) (b : Fin 8) (n : Fin 2048) (d : Fin 64) :
    expShift (F := Ideal) a (ix3 b n d) = Ideal.exp (a (ix3 b n d) - rowMax (fun d' => a (ix3 b n d'))) := by
  unfold expShift
  show Ideal.exp (a (ix3 b n d) - rowMaxCol (F := Ideal) a (ix3 b n d)) = _
  rw [rowMaxCol_apply]

theorem softmaxLast_apply (a : FVec Ideal S8x2048x64 .f32) (b : Fin 8) (n : Fin 2048) (d : Fin 64) :
    softmaxLast (F := Ideal) a (ix3 b n d) = softmaxRow (fun d' => a (ix3 b n d')) d := by
  unfold softmaxLast softmaxRow
  refine (show _ = Ideal.div (expShift (F := Ideal) a (ix3 b n d)) _ from rfl).trans ?_
  rw [column_apply, expShift_apply]
  refine congrArg (Ideal.div _) ?_
  unfold Host.reduceAdd
  rw [Ideal.hostReduceAdd_def, Ideal.hostReduceAdd_single reducesTo_S8x2048x64_S8x2048_d2 reduces_last]
  show Ideal.ofBits .f32 0x00000000#32 + _ = _
  rw [Ideal.ofBits_zero_f32, zero_add]
  refine Finset.sum_congr rfl fun k _ => ?_
  rw [lift_row, expShift_apply]
  rfl

/-! ## The result at an index -/

/-- The join on the last axis reads its first operand at entries 0..63. -/
theorem join_fwd (X Y : FVec Ideal S8x2048x64 .f32) (b : Fin 8) (n : Fin 2048) (d : Fin 64) :
    concatenate S8x2048x128 2 [⟨S8x2048x64, X⟩, ⟨S8x2048x64, Y⟩] concatenates_S8x2048x64_S8x2048x64_S8x2048x128_d2
      (ix3 b n (⟨d.val, by have := d.isLt; omega⟩ : Fin 128)) = X (ix3 b n d) :=
  concatenate_pair_apply_left (t := S8x2048x128) (s₁ := S8x2048x64) (s₂ := S8x2048x64) (2 : Fin 3) X Y concatenates_S8x2048x64_S8x2048x64_S8x2048x128_d2 _ rfl (ix3 b n d)
    (fun a => match a with | ⟨0, _⟩ => rfl | ⟨1, _⟩ => rfl | ⟨2, _⟩ => rfl)

/-- … and its second operand, shifted by the first's 64 entries, at entries 64..127. -/
theorem join_bwd (X Y : FVec Ideal S8x2048x64 .f32) (b : Fin 8) (n : Fin 2048) (d : Fin 64) :
    concatenate S8x2048x128 2 [⟨S8x2048x64, X⟩, ⟨S8x2048x64, Y⟩] concatenates_S8x2048x64_S8x2048x64_S8x2048x128_d2
      (ix3 b n (⟨d.val + 64, by have := d.isLt; omega⟩ : Fin 128)) = Y (ix3 b n d) :=
  concatenate_pair_apply_right (t := S8x2048x128) (s₁ := S8x2048x64) (s₂ := S8x2048x64) (2 : Fin 3) X Y concatenates_S8x2048x64_S8x2048x64_S8x2048x128_d2 _ rfl rfl (ix3 b n d)
    (fun a ha => match a, ha with
      | ⟨0, _⟩, _ => rfl
      | ⟨1, _⟩, _ => rfl
      | ⟨2, _⟩, ha => absurd rfl ha)
    rfl

/-- One direction's half of the reference's result is that direction's code. -/
theorem half_apply (x dyn : FVec Ideal S8x2048x64 .f32) (adj : FVec Ideal S8x2048x2048 .f32) (w : FVec Ideal S64x64 .f32) (bias : FVec Ideal S64 .f32)
    (b : Fin 8) (n : Fin 2048) (d : Fin 64) :
    mulf dyn (softmaxLast (F := Ideal) (projAgg (F := Ideal) x adj w bias)) (ix3 b n d) = code x dyn adj w bias b n d := by
  unfold code
  refine (mulf_apply _ _ _).trans ?_
  rw [softmaxLast_apply]
  exact congrArg (dyn (ix3 b n d) * softmaxRow · d) (funext fun d' => projAgg_apply x adj w bias b n d')

theorem resultTerm_eq (x0 x1 : FVec Ideal S8x2048x64 .f32) (x2 x3 : FVec Ideal S8x2048x2048 .f32) (x4 : FVec Ideal S64x64 .f32) (x5 : FVec Ideal S64 .f32)
    (x6 : FVec Ideal S64x64 .f32) (x7 : FVec Ideal S64 .f32) :
    resultTerm (F := Ideal) x0 x1 x2 x3 x4 x5 x6 x7 = result x0 x1 x2 x3 x4 x5 x6 x7 := by
  funext i
  obtain ⟨b, n, q, rfl⟩ : ∃ (b : Fin 8) (n : Fin 2048) (q : Fin 128), i = ix3 b n q := ⟨i 0, i 1, i 2, eq_ix3 i⟩
  unfold resultTerm
  rcases last_axis_cases q with ⟨d, rfl⟩ | ⟨d, rfl⟩
  · rw [result_fwd]
    exact (join_fwd _ _ b n d).trans (half_apply x0 x1 x2 x4 x5 b n d)
  · rw [result_bwd]
    exact (join_bwd _ _ b n d).trans (half_apply x0 x1 x3 x6 x7 b n d)

end Cert.ReferenceIdeal.RefValue

end
-- ==== Proof.lean ====
/-
  The kernel against its reference: both compute, for each batch b and node n, the two codes
      dyn(b, n, ·) · softmax (Σ_k adj(b, n, k) · (x(b, k, ·) · W + bias))
  from the forward and from the backward adjacency and parameters, joined on the last axis.

  The kernel tiles the nodes in blocks of 1024 rows, keeps the node and dynamic features feature-major, computes the
  projected features x · W + bias of all batches once, at the grid's first point, into two scratch arrays that every
  later point reads, and writes each block's two halves separately. The reference works on whole arrays. Over the
  extended reals a matrix product is a sum over the contracted coordinate whatever the layout or the tiling, each
  program's row maximum is the fold of `max` from -∞ over the row's 64 entries, and the exponentials, sums and
  quotients are the same operations on the same numbers; so the two results agree entry by entry, with no use of the
  inputs being finite.

  * The three programs terminate without fault and leave their arguments unchanged: the kernels by their generated
    frames, the reference by its run (Proof/RefRun.lean).
  * The idealization rewrote nothing, so there is nothing to preserve.
  * The kernel's result array is the specification (Proof/AttnSpec.lean) of the argument arrays (Proof/KernelValue.lean,
    over Proof/KernelPieces.lean and Proof/KernelPayload.lean); so is the reference's (Proof/RefValue.lean).
-/
import proofs.«130610_g44976897524696_cont_8to1c4_646_24_alg».proof.Defs
import proofs.«130610_g44976897524696_cont_8to1c4_646_24_alg».proof.Proof.Gen.Kernel
import proofs.«130610_g44976897524696_cont_8to1c4_646_24_alg».proof.Proof.Gen.Kernel.Skeleton
import proofs.«130610_g44976897524696_cont_8to1c4_646_24_alg».proof.Proof.Gen.Kernel.Launch
import proofs.«130610_g44976897524696_cont_8to1c4_646_24_alg».proof.Proof.Gen.Kernel.Points
import proofs.«130610_g44976897524696_cont_8to1c4_646_24_alg».proof.Proof.Gen.Kernel.Frame
import proofs.«130610_g44976897524696_cont_8to1c4_646_24_alg».proof.Proof.Gen.KernelIdeal
import proofs.«130610_g44976897524696_cont_8to1c4_646_24_alg».proof.Proof.Gen.KernelIdeal.Skeleton
import proofs.«130610_g44976897524696_cont_8to1c4_646_24_alg».proof.Proof.Gen.KernelIdeal.Launch
import proofs.«130610_g44976897524696_cont_8to1c4_646_24_alg».proof.Proof.Gen.KernelIdeal.Points
import proofs.«130610_g44976897524696_cont_8to1c4_646_24_alg».proof.Proof.Gen.KernelIdeal.Frame
import proofs.«130610_g44976897524696_cont_8to1c4_646_24_alg».proof.Proof.Gen.ReferenceIdeal
import proofs.«130610_g44976897524696_cont_8to1c4_646_24_alg».proof.Proof.Gen.KernelIdeal.Value
import proofs.«130610_g44976897524696_cont_8to1c4_646_24_alg».proof.Proof.Gen.Pre_finite_inputs
import proofs.«130610_g44976897524696_cont_8to1c4_646_24_alg».proof.Proof.KernelValue
import proofs.«130610_g44976897524696_cont_8to1c4_646_24_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end with the result at the specification of the (agreeing) arguments. -/
theorem algebraic : Cert.algebraic_KernelIdeal_ReferenceIdeal := by
  intro m ρ m' ρ' _ hagree
  refine ⟨fun c => Cert.KernelIdeal.BlockValue.resultArr m c, Cert.KernelIdeal.BlockValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7⟩ := hagree c
  rw [e0, e1, e2, e3, e4, e5, e6, e7]
  exact Cert.ReferenceIdeal.RefValue.resultTerm_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
